-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S640000 : Shape := ⟨1, ![640000]⟩
abbrev S1x384 : Shape := ⟨2, ![1, 384]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S1x384 : S_.BroadcastsInDim S1x384 (![] : Fin 0 → Fin S1x384.rank)
  reducesTo_S1x384_S_d0_1 : S1x384.ReducesTo [0, 1] S_
  bcast_S_S1 : S_.BroadcastsInDim S1 (![] : Fin 0 → Fin S1.rank)
  reducesTo_S1_S_d0 : S1.ReducesTo [0] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg2 : IVec S640000 32) (main_arg3 : IVec S640000 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S640000 32 := broadcastInDim S640000 ![] bcast_S_S640000 main_c_6
  let main_v20 : IVec S640000 1 := cmpi .sge main_arg2 main_v19
  let main_c_7 : IVec S_ 32 := constantI S_ 32 50000#32
  let main_v21 : IVec S640000 32 := broadcastInDim S640000 ![] bcast_S_S640000 main_c_7
  let main_v22 : IVec S640000 1 := cmpi .slt main_arg2 main_v21
  let main_v23 : IVec S640000 1 := andi main_v20 main_v22
  let main_c_8 : IVec S_ 1 := constantI S_ 1 1#1
  let main_v24 : IVec S_ 1 := (fun x v => Host.reduce IntOp.andi x v reducesTo_S640000_S_d0 h_S_) main_v23 main_c_8
  let main_v25 : IVec S_ 1 := andi main_v18 main_v24
  let main_c_9 : IVec S_ 32 := constantI S_ 32 0#32
  let main_v26 : IVec S640000 32 := broadcastInDim S640000 ![] bcast_S_S640000 main_c_9
  let main_v27 : IVec S640000 1 := cmpi .sge main_arg3 main_v26
  let main_c_10 : IVec S_ 32 := constantI S_ 32 50000#32
  let main_v28 : IVec S640000 32 := broadcastInDim S640000 ![] bcast_S_S640000 main_c_10
  let main_v29 : IVec S640000 1 := cmpi .slt main_arg3 main_v28
  let main_v30 : IVec S640000 1 := andi main_v27 main_v29
  let main_c_11 : IVec S_ 1 := constantI S_ 1 1#1
  let main_v31 : IVec S_ 1 := (fun x v => Host.reduce IntOp.andi x v reducesTo_S640000_S_d0 h_S_) main_v30 main_c_11
  let main_v32 : IVec S_ 1 := andi main_v25 main_v31
  main_v32

def fn {F : FTy → Type} [FloatOps F] (main_arg0 : FVec F S50000x128 .f32) (main_arg1 : FVec F S640000x128 .f32) (main_arg2 : IVec S640000 32) (main_arg3 : IVec S640000 32) (main_arg4 : FVec F S1x384 .f32) (main_arg5 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S1x384 .f32 := Host.absf main_arg4
  let main_cst_2 : FVec F S_ .f32 := constant S_ .f32 0x7F800000#32
  let main_v10 : FVec F S1x384 .f32 := broadcastInDim S1x384 ![] bcast_S_S1x384 main_cst_2
  let main_v11 : IVec S1x384 1 := cmpf .olt main_v9 main_v10
  let main_c_3 : IVec S_ 1 := constantI S_ 1 1#1
  let main_v12 : IVec S_ 1 := (fun x v => Host.reduce IntOp.andi x v reducesTo_S1x384_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg2 main_arg3 main_v13 main_v16
-- ==== Kernel.lean ====
abbrev S50000x128 : Shape := ⟨2, ![50000, 128]⟩
abbrev S640000x128 : Shape := ⟨2, ![640000, 128]⟩
abbrev S640000 : Shape := ⟨1, ![640000]⟩
abbrev S1x384 : Shape := ⟨2, ![1, 384]⟩
abbrev S1 : Shape := ⟨1, ![1]⟩
abbrev S1x128 : Shape := ⟨2, ![1, 128]⟩
abbrev S128x1 : Shape := ⟨2, ![128, 1]⟩
abbrev S50000x1 : Shape := ⟨2, ![50000, 1]⟩
abbrev S50000 : Shape := ⟨1, ![50000]⟩
abbrev S_ : Shape := ⟨0, ![]⟩
abbrev S640000x1 : Shape := ⟨2, ![640000, 1]⟩
abbrev S1x1 : Shape := ⟨2, ![1, 1]⟩
abbrev S5000x128x128 : Shape := ⟨3, ![5000, 128, 128]⟩
abbrev S5000x128 : Shape := ⟨2, ![5000, 128]⟩
abbrev S1x1x128 : Shape := ⟨3, ![1, 1, 128]⟩
abbrev S200x128x128 : Shape := ⟨3, ![200, 128, 128]⟩
abbrev S200x128 : Shape := ⟨2, ![200, 128]⟩

abbrev nBuf : Space → Nat
  | .hbm => 68
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S1x384, .f32⟩
  | .hbm, ⟨5, _⟩ => ⟨S1, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S128x1, .f32⟩
  | .hbm, ⟨10, _⟩ => ⟨S50000x1, .f32⟩
  | .hbm, ⟨11, _⟩ => ⟨S128x1, .f32⟩
  | .hbm, ⟨12, _⟩ => ⟨S50000x1, .f32⟩
  | .hbm, ⟨13, _⟩ => ⟨S50000, .f32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S1, .i32⟩
  | .hbm, ⟨23, _⟩ => ⟨S_, .i32⟩
  | .hbm, ⟨24, _⟩ => ⟨S640000x1, .i32⟩
  | .hbm, ⟨25, _⟩ => ⟨S640000x1, .i1⟩
  | .hbm, ⟨26, _⟩ => ⟨S1x1, .i32⟩
  | .hbm, ⟨27, _⟩ => ⟨S640000x1, .i32⟩
  | .hbm, ⟨28, _⟩ => ⟨S640000x1, .i1⟩
  | .hbm, ⟨29, _⟩ => ⟨S640000x1, .i1⟩
  | .hbm, ⟨30, _⟩ => ⟨S_, .i1⟩
  | .hbm, ⟨31, _⟩ => ⟨S640000, .i1⟩
  | .hbm, ⟨32, _⟩ => ⟨S640000, .f32⟩
  | .hbm, ⟨33, _⟩ => ⟨S_, .f32⟩
  | .hbm, ⟨34, _⟩ => ⟨S640000, .f32⟩
  | .hbm, ⟨35, _⟩ => ⟨S640000, .f32⟩
  | .hbm, ⟨36, _⟩ => ⟨S50000, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S1, .i32⟩
  | .hbm, ⟨46, _⟩ => ⟨S_, .i32⟩
  | .hbm, ⟨47, _⟩ => ⟨S640000x1, .i32⟩
  | .hbm, ⟨48, _⟩ => ⟨S640000x1, .i1⟩
  | .hbm, ⟨49, _⟩ => ⟨S1x1, .i32⟩
  | .hbm, ⟨50, _⟩ => ⟨S640000x1, .i32⟩
  | .hbm, ⟨51, _⟩ => ⟨S640000x1, .i1⟩
  | .hbm, ⟨52, _⟩ => ⟨S640000x1, .i1⟩
  | .hbm, ⟨53, _⟩ => ⟨S_, .i1⟩
  | .hbm, ⟨54, _⟩ => ⟨S640000, .i1⟩
  | .hbm, ⟨55, _⟩ => ⟨S640000, .f32⟩
  | .hbm, ⟨56, _⟩ => ⟨S_, .f32⟩
  | .hbm, ⟨57, _⟩ => ⟨S640000, .f32⟩
  | .hbm, ⟨58, _⟩ => ⟨S640000, .f32⟩
  | .hbm, ⟨59, _⟩ => ⟨S640000, .f32⟩
  | .hbm, ⟨60, _⟩ => ⟨S_, .f32⟩
  | .hbm, ⟨61, _⟩ => ⟨S640000, .f32⟩
  | .hbm, ⟨62, _⟩ => ⟨S640000, .f32⟩
  | .hbm, ⟨63, _⟩ => ⟨S5000x128x128, .f32⟩
  | .hbm, ⟨64, _⟩ => ⟨S5000x128, .f32⟩
  | .hbm, ⟨65, _⟩ => ⟨S1x1x128, .f32⟩
  | .hbm, ⟨66, _⟩ => ⟨S5000x128, .f32⟩
  | .hbm, ⟨67, _⟩ => ⟨S640000x1, .f32⟩
  | .local _ .vmem, ⟨0, _⟩ => ⟨S200x128x128, .f32⟩
  | .local _ .vmem, ⟨1, _⟩ => ⟨S200x128x128, .f32⟩
  | .local _ .vmem, ⟨2, _⟩ => ⟨S200x128, .f32⟩
  | .local _ .vmem, ⟨3, _⟩ => ⟨S200x128, .f32⟩
  | .local _ .vmem, ⟨4, _⟩ => ⟨S1x1x128, .f32⟩
  | .local _ .vmem, ⟨5, _⟩ => ⟨S200x128, .f32⟩
  | .local _ .vmem, ⟨6, _⟩ => ⟨S200x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v8 : Ref sig .tc := ⟨.hbm, 35, rfl⟩
abbrev main_v9 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S1x384_S1x128_0_0 : S1x384.Slices ![0, 0] S1x128
  slices_S1x384_S1x128_0_128 : S1x384.Slices ![0, 128] S1x128
  slices_S1x384_S1x128_0_256 : S1x384.Slices ![0, 256] S1x128
  transposes_S1x128_S128x1_1_0 : S1x128.Transposes [1, 0] S128x1
  shapeCasts_S50000x1_S50000 : S50000x1.ShapeCasts S50000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  shapeCasts_S1_S_ : S1.ShapeCasts S_
  shapeCasts_S640000x128_S5000x128x128 : S640000x128.ShapeCasts S5000x128x128
  shapeCasts_S640000_S5000x128 : S640000.ShapeCasts S5000x128
  shapeCasts_S1x128_S1x1x128 : S1x128.ShapeCasts S1x1x128
  inb_S200x128x128_S200x128x128_0_0_0 : ∀ a, (![0, 0, 0] : Fin 3 → Nat) a + S200x128x128.size a ≤ S200x128x128.size a
  h_S200x128x128 : 0 < S200x128x128.numel
  shapeCasts_S200x128x128_S200x128x128 : S200x128x128.ShapeCasts S200x128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  broadcasts_S1x1x128_S200x128x128 : S1x1x128.Broadcasts S200x128x128
  reduces_S200x128x128_S200x128 : S200x128x128.Reduces [2] S200x128
  inb_S200x128_S200x128_0_0 : ∀ a, (![0, 0] : Fin 2 → Nat) a + S200x128.size a ≤ S200x128.size a
  h_S200x128 : 0 < S200x128.numel
  shapeCasts_S200x128_S200x128 : S200x128.ShapeCasts S200x128
  shapeCasts_S5000x128_S640000x1 : S5000x128.ShapeCasts S640000x1
  dot_S50000x128_S128x1_S50000x1_1_0_0_1_n_n_wf : DotDims.WF S50000x128 S128x1 S50000x1 [1] [0] [0] [1] [] []
  gather_S50000_S640000x1_S640000_n_0_n_n_0_1_1_wf : GatherDims.WF S50000 S640000x1 S640000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128x128.size a ≤ S5000x128x128.size a
  hwx0_0 : ∀ i : grid0.Coords, EltTy.bits .f32 = 32 ∨ (Rect.block (s := S5000x128x128) S200x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S5000x128.size a
  hwx0_1 : ∀ i : grid0.Coords, EltTy.bits .f32 = 32 ∨ (Rect.block (s := S5000x128) S200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S1x1x128.size a
  hwx0_2 : ∀ i : grid0.Coords, EltTy.bits .f32 = 32 ∨ (Rect.block (s := S1x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S5000x128.size a
  hwx0_3 : ∀ i : grid0.Coords, EltTy.bits .f32 = 32 ∨ (Rect.block (s := S5000x128) S200x128.size (cc0_transform_3 i) (hinb0_3 i)).WholeWords (EltTy.packing .f32)

variable [Facts₀]

def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf

abbrev win0_0 : Pipeline.Window sig grid0 :=
  Pipeline.Window.ofSpec (Memref.whole main_v15) S200x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S200x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S640000 : Shape := ⟨1, ![640000]⟩
abbrev S1x384 : Shape := ⟨2, ![1, 384]⟩
abbrev S1 : Shape := ⟨1, ![1]⟩
abbrev S1x128 : Shape := ⟨2, ![1, 128]⟩
abbrev S_ : Shape := ⟨0, ![]⟩
abbrev S640000x1 : Shape := ⟨2, ![640000, 1]⟩
abbrev S1x1 : Shape := ⟨2, ![1, 1]⟩
abbrev S128x1 : Shape := ⟨2, ![128, 1]⟩

abbrev nBuf : Space → Nat
  | .hbm => 66
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S1x384, .f32⟩
  | .hbm, ⟨5, _⟩ => ⟨S1, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S1, .i32⟩
  | .hbm, ⟨18, _⟩ => ⟨S_, .i32⟩
  | .hbm, ⟨19, _⟩ => ⟨S640000x1, .i32⟩
  | .hbm, ⟨20, _⟩ => ⟨S640000x1, .i1⟩
  | .hbm, ⟨21, _⟩ => ⟨S1x1, .i32⟩
  | .hbm, ⟨22, _⟩ => ⟨S640000x1, .i32⟩
  | .hbm, ⟨23, _⟩ => ⟨S640000x1, .i1⟩
  | .hbm, ⟨24, _⟩ => ⟨S640000x1, .i1⟩
  | .hbm, ⟨25, _⟩ => ⟨S_, .i1⟩
  | .hbm, ⟨26, _⟩ => ⟨S640000, .i1⟩
  | .hbm, ⟨27, _⟩ => ⟨S640000x128, .f32⟩
  | .hbm, ⟨28, _⟩ => ⟨S640000x128, .i1⟩
  | .hbm, ⟨29, _⟩ => ⟨S_, .f32⟩
  | .hbm, ⟨30, _⟩ => ⟨S640000x128, .f32⟩
  | .hbm, ⟨31, _⟩ => ⟨S640000x128, .f32⟩
  | .hbm, ⟨32, _⟩ => ⟨S128x1, .f32⟩
  | .hbm, ⟨33, _⟩ => ⟨S640000x1, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S1, .i32⟩
  | .hbm, ⟨43, _⟩ => ⟨S_, .i32⟩
  | .hbm, ⟨44, _⟩ => ⟨S640000x1, .i32⟩
  | .hbm, ⟨45, _⟩ => ⟨S640000x1, .i1⟩
  | .hbm, ⟨46, _⟩ => ⟨S1x1, .i32⟩
  | .hbm, ⟨47, _⟩ => ⟨S640000x1, .i32⟩
  | .hbm, ⟨48, _⟩ => ⟨S640000x1, .i1⟩
  | .hbm, ⟨49, _⟩ => ⟨S640000x1, .i1⟩
  | .hbm, ⟨50, _⟩ => ⟨S_, .i1⟩
  | .hbm, ⟨51, _⟩ => ⟨S640000, .i1⟩
  | .hbm, ⟨52, _⟩ => ⟨S640000x128, .f32⟩
  | .hbm, ⟨53, _⟩ => ⟨S640000x128, .i1⟩
  | .hbm, ⟨54, _⟩ => ⟨S_, .f32⟩
  | .hbm, ⟨55, _⟩ => ⟨S640000x128, .f32⟩
  | .hbm, ⟨56, _⟩ => ⟨S640000x128, .f32⟩
  | .hbm, ⟨57, _⟩ => ⟨S128x1, .f32⟩
  | .hbm, ⟨58, _⟩ => ⟨S640000x1, .f32⟩
  | .hbm, ⟨59, _⟩ => ⟨S640000x1, .f32⟩
  | .hbm, ⟨60, _⟩ => ⟨S128x1, .f32⟩
  | .hbm, ⟨61, _⟩ => ⟨S640000x1, .f32⟩
  | .hbm, ⟨62, _⟩ => ⟨S640000x1, .f32⟩
  | .hbm, ⟨63, _⟩ => ⟨S1x1, .f32⟩
  | .hbm, ⟨64, _⟩ => ⟨S640000x1, .f32⟩
  | .hbm, ⟨65, _⟩ => ⟨S640000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩

abbrev nD : Nat := 1
abbrev τ : Topo := Topo.v7x

variable {F : FTy → Type} [FloatOps F]

class Facts₀ : Prop where
  slices_S1x384_S1x128_0_0 : S1x384.Slices ![0, 0] S1x128
  slices_S1x384_S1x128_0_128 : S1x384.Slices ![0, 128] S1x128
  slices_S1x384_S1x128_0_256 : S1x384.Slices ![0, 256] S1x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  transposes_S1x128_S128x1_1_0 : S1x128.Transposes [1, 0] S128x1
  gather_S50000x128_S640000x1_S640000x128_1_0_n_n_0_1_1128_wf : GatherDims.WF S50000x128 S640000x1 S640000x128 [1] [0] [] [0] [] 1 ![1, 128]
  dot_S640000x128_S128x1_S640000x1_1_0_0_1_n_n_wf : DotDims.WF S640000x128 S128x1 S640000x1 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf

class Facts : Prop extends Facts₀ where

variable [Facts]
-- ==== Proof.KHostDefs.lean ====
/-
  The arrays the kernel's region finds, as functions of the argument arrays.

  Before the region the host projects the node table onto the first two weight blocks (two columns of
  50000 entries), looks the two columns up at the source and destination indices (negative indices wrapped,
  indices out of range replaced by a filler), adds the two looked-up terms and the bias, and regroups the
  640000 edges in rows of 128; it regroups the edge features the same way and takes the third weight block
  as a row.
-/
import proofs.«109225_j45054206935079_2_alg».proof.Proof.Gen.KernelIdeal.Frame
import Idealize.ShloMosaic.Lib.StableHlo.Run

noncomputable section

namespace Cert.KernelIdeal.EdgeValue

open Idealize.ShloMosaic Idealize.ShloMosaic.TcCoe Idealize.SL.Sem Idealize.ShloMosaic.StableHlo Cert.KernelIdeal Cert.KernelIdeal.Gen

variable {F : FTy → Type} [FloatOps F]

/-- The start indices as the gather takes them: a negative word wrapped by the table's length, as a column. -/
def wrapCol (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 50000#32))) idx)

/-- The bounds mask: the wrapped index lies in `[0, 49999]`. -/
def inBounds (idx : IVec S640000 32) : IVec S640000 1 :=
  Host.reduce IntOp.andi
    (andi (cmpi .sge (wrapCol idx) (broadcastInDim S640000x1 ![] bcast_S_S640000x1 (constantI S_ 32 0#32)))
      (cmpi .sle (wrapCol idx) (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_

/-- A column of node values looked up at an index per edge; the filler where the index is out of range. -/
def takeVec (x : FVec F S50000 .f32) (idx : IVec S640000 32) : FVec F S640000 .f32 :=
  select (inBounds idx) (Host.gather gather_S50000_S640000x1_S640000_n_0_n_n_0_1_1 x (wrapCol idx))
    (broadcastInDim S640000 ![] bcast_S_S640000 (constant S_ .f32 0x7FC00000#32))

/-- The node table projected onto one weight block, as a flat column. -/
def nodeProj (h : FVec F S50000x128 .f32) (wk : FVec F S1x128 .f32) : FVec F S50000 .f32 :=
  shapeCast S50000 (Host.dotGeneral dot_S50000x128_S128x1_S50000x1_1_0_0_1_n_n none h
    (transpose S128x1 [1, 0] wk transposes_S1x128_S128x1_1_0)) shapeCasts_S50000x1_S50000

/-- The per-edge term the kernel adds: source projection + destination projection + bias. -/
def termFlat (h : FVec F S50000x128 .f32) (src dst : IVec S640000 32) (w : FVec F S1x384 .f32) (b : FVec F S1 .f32) :
    FVec F S640000 .f32 :=
  addf (addf (takeVec (nodeProj h (extractStridedSlice S1x128 ![0, 0] w slices_S1x384_S1x128_0_0)) src)
      (takeVec (nodeProj h (extractStridedSlice S1x128 ![0, 128] w slices_S1x384_S1x128_0_128)) dst))
    (broadcastInDim S640000 ![] bcast_S_S640000 (shapeCast S_ b shapeCasts_S1_S_))

variable (m : (ℓ : Loc nD τ sig) → Buf (Elt F) ℓ)

/-- The edge features, regrouped in rows of 128 edges. -/
theorem V_edges (c : Dev nD) :
    (V m c main_v15 : S5000x128x128.Idx → F .f32)
      = shapeCast S5000x128x128 (m ((c.tc : Thread nD τ).loc main_arg1) : S640000x128.Idx → F .f32)
          shapeCasts_S640000x128_S5000x128x128 := by
  dsimp only [V, V0]
  simp only [hostOps0, hostOps0_1, hostOps0_2, hostOps0_3, hostOps0_4, List.flatten_cons, List.flatten_nil, List.append_nil,
    List.cons_append, List.nil_append]
  after_results_simp
  rfl

/-- The third weight block, as a row. -/
theorem V_weight (c : Dev nD) :
    (V m c main_v17 : S1x1x128.Idx → F .f32)
      = shapeCast S1x1x128 (extractStridedSlice S1x128 ![0, 256] (m ((c.tc : Thread nD τ).loc main_arg4) : S1x384.Idx → F .f32)
          slices_S1x384_S1x128_0_256) shapeCasts_S1x128_S1x1x128 := by
  dsimp only [V, V0]
  simp only [hostOps0, hostOps0_1, hostOps0_2, hostOps0_3, hostOps0_4, List.flatten_cons, List.flatten_nil, List.append_nil,
    List.cons_append, List.nil_append]
  after_results_simp
  rfl

attribute [local irreducible] Host.reduce Host.gather in
set_option maxRecDepth 100000 in
set_option maxHeartbeats 2000000 in
/-- The per-edge term, regrouped in rows of 128 edges. -/
theorem V_term (c : Dev nD) :
    (V m c main_v16 : S5000x128.Idx → F .f32)
      = shapeCast S5000x128 (termFlat (m ((c.tc : Thread nD τ).loc main_arg0) : S50000x128.Idx → F .f32)
            (m ((c.tc : Thread nD τ).loc main_arg2) : S640000.Idx → BitVec 32)
            (m ((c.tc : Thread nD τ).loc main_arg3) : S640000.Idx → BitVec 32)
            (m ((c.tc : Thread nD τ).loc main_arg4) : S1x384.Idx → F .f32)
            (m ((c.tc : Thread nD τ).loc main_arg5) : S1.Idx → F .f32))
          shapeCasts_S640000_S5000x128 := by
  dsimp only [V, V0]
  simp only [hostOps0, hostOps0_1, hostOps0_2, hostOps0_3, hostOps0_4, List.flatten_cons, List.flatten_nil, List.append_nil,
    List.cons_append, List.nil_append]
  after_results_simp
  rfl

end Cert.KernelIdeal.EdgeValue

end
-- ==== Proof.Spec.lean ====
/-
  The edge score, as one function of the argument arrays.

  An edge `i` has a source node `src i` and a destination node `dst i`, both rows of the node table `h`
  (50000 rows of 128 features), and its own 128 features `e i`.  The weight row `w` (384 entries) is three
  blocks of 128: the first meets the source node's features, the second the destination node's, the third
  the edge's own.  The score is the sum of the three inner products plus the bias.

  An index word names a row when, read signed, it lies in `[0, 50000)`; the row a gather reads for a word is
  the word read signed and clamped into the table, which for such a word is the word itself.
-/
import Idealize.ShloMosaic.Lib.ValueIdx
import Idealize.ShloMosaic.Lib.Affine
import Idealize.ShloMosaic.PureOps.Ideal

noncomputable section

open scoped BigOperators

namespace Cert.EdgeSpec

open Idealize.ShloMosaic Idealize.ShloMosaic.ValueIdx

/-- The index word, read signed, is a row of the node table. -/
def InRange (s : BitVec 32) : Prop := 0 ≤ s.toInt ∧ s.toInt < 50000

/-- The row a gather reads for the start index `s`: `s` read signed, clamped into `[0, 49999]`. -/
def row (s : BitVec 32) : Fin 50000 := ⟨min s.toInt.toNat 49999, by omega⟩

/-- Column `d` of the weight row's block `k` (`k = 0, 1, 2`: source, destination, edge). -/
def wcol (k : Fin 3) (d : Fin 128) : Fin 384 := ⟨128 * k.val + d.val, by omega⟩

/-- The score of edge `i`: source row · first weight block + destination row · second weight block
    + edge features · third weight block + bias, grouped as the plain formula groups it. -/
def score (h : (⟨2, ![50000, 128]⟩ : Shape).Idx → EReal) (e : (⟨2, ![640000, 128]⟩ : Shape).Idx → EReal)
    (src dst : (⟨1, ![640000]⟩ : Shape).Idx → BitVec 32) (w : (⟨2, ![1, 384]⟩ : Shape).Idx → EReal)
    (b : (⟨1, ![1]⟩ : Shape).Idx → EReal) (i : Fin 640000) : EReal :=
  ((∑ d : Fin 128, h (ix2 (row (src (ix1 i))) d) * w (ix2 (0 : Fin 1) (wcol 0 d))
      + ∑ d : Fin 128, h (ix2 (row (dst (ix1 i))) d) * w (ix2 (0 : Fin 1) (wcol 1 d)))
    + ∑ d : Fin 128, e (ix2 i d) * w (ix2 (0 : Fin 1) (wcol 2 d)))
  + b (ix1 (0 : Fin 1))

/-- A word in range is not negative: the wrap-around of negative indices leaves it alone. -/
theorem slt_zero_of_inRange {s : BitVec 32} (hs : InRange s) : IntOp.cmpi .slt s 0#32 = 0#1 := by
  have h0 : (0#32 : BitVec 32).toInt = 0 := by decide
  have : ¬ (IntOp.cmpi .slt s 0#32 = 1#1) := by
    rw [IntOp.cmpi_slt, h0]; exact not_lt.mpr hs.1
  exact eq_zero_of_ne_one this

/-- A word in range passes the lower bounds check. -/
theorem sge_zero_of_inRange {s : BitVec 32} (hs : InRange s) : IntOp.cmpi .sge s 0#32 = 1#1 := by
  have h0 : (0#32 : BitVec 32).toInt = 0 := by decide
  rw [IntOp.cmpi_sge, h0]; exact hs.1

/-- A word in range passes the upper bounds check. -/
theorem sle_max_of_inRange {s : BitVec 32} (hs : InRange s) : IntOp.cmpi .sle s 49999#32 = 1#1 := by
  have h0 : (49999#32 : BitVec 32).toInt = 49999 := by decide
  rw [IntOp.cmpi_sle, h0]; have := hs.2; omega

/-- From the two comparisons of the stated domain: `0 ≤ s` and `s < 50000`, both signed. -/
theorem inRange_of_cmp {s : BitVec 32} (h0 : IntOp.cmpi .sge s 0#32 = 1#1) (h1 : IntOp.cmpi .slt s 50000#32 = 1#1) :
    InRange s := by
  have e0 : (0#32 : BitVec 32).toInt = 0 := by decide
  have e1 : (50000#32 : BitVec 32).toInt = 50000 := by decide
  rw [IntOp.cmpi_sge, e0] at h0
  rw [IntOp.cmpi_slt, e1] at h1
  exact ⟨h0, h1⟩

end Cert.EdgeSpec

end
-- ==== Proof.LibTake.lean ====
/-
  Three facts about array operations read at one element, for any extents.

  A gather with one start index per result row reads, on the gathered axis, the start index taken as a
  signed integer and clamped into the operand's rows: the start index is clamped to `[0, N - 1]` where `N`
  is the number of rows (the slice has one row), and on an axis that is copied whole (an offset axis) it
  reads the result's own coordinate. Stated for a flat operand `[N]` (result `[R]`) and for a table `[N, K]`
  whose rows are copied whole (result `[R, K]`); the start indices are a column `[R, 1]`.

  A reduction by `and` over an axis of extent one, from the bit 1, keeps the one bit of each row: the
  operand indices that reduce into row `i` all have second coordinate 0, so every bit met is the row's.
-/
import Idealize.ShloMosaic.Lib.ValueIdx
import Idealize.ShloMosaic.Lib.ReduceAll
import Idealize.ShloMosaic.PureOps.Reduce

namespace Cert.LibTake

open Idealize.ShloMosaic Idealize.ShloMosaic.ValueIdx

/-- dimension numbers of x[idx] for a flat x : [N] at a column of start indices [R,1] -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

theorem gather_vec_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (i : Fin R) :
    Host.gather (vecDims N R wf) x idx (ix1 i) = x (ix1 ⟨min (idx (ix2 i (0 : Fin 1))).toInt.toNat (N - 1), by omega⟩) := by
  unfold Host.gather
  congr 1
  funext a
  obtain rfl : a = 0 := Subsingleton.elim _ _
  refine Fin.ext ?_
  show (vecDims N R wf).start (ix1 i) idx 0 + (vecDims N R wf).batchCoord (ix1 i) 0 + (vecDims N R wf).offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 i) ⟨List.idxOf (0 : Fin 1) (vecDims N R wf).startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

/-- dimension numbers of x[idx] (rows) for x : [N,K] at a column of start indices [R,1] -/
abbrev rowDims (N K R : Nat) (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

theorem gather_row_apply {α : Type} {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (i : Fin R) (k : Fin K) :
    Host.gather (rowDims N K R wf) x idx (ix2 i k) = x (ix2 ⟨min (idx (ix2 i (0 : Fin 1))).toInt.toNat (N - 1), by omega⟩ k) := by
  unfold Host.gather
  congr 1
  funext a
  refine Fin.ext ?_
  show (rowDims N K R wf).start (ix2 i k) idx a + (rowDims N K R wf).batchCoord (ix2 i k) a + (rowDims N K R wf).offCoord (ix2 i k) a = _
  rw [GatherDims.batchCoord_eq_zero _ _ _ List.not_mem_nil]
  have ha : a = (0 : Fin 2) ∨ a = (1 : Fin 2) := by
    rcases a with ⟨v, hv⟩
    have hv' : v < 2 := hv
    interval_cases v
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N K R wf).startIndexMap from List.mem_singleton.mpr rfl)]
    have hsi : (rowDims N K R wf).siIdx (ix2 i k) ⟨List.idxOf (0 : Fin 2) (rowDims N K R wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  · have h1 : (1 : Fin 2) ∉ (rowDims N K R wf).startIndexMap := by
      intro h; exact absurd (List.mem_singleton.mp h) (by decide : ¬ (1 : Fin 2) = 0)
    unfold GatherDims.start
    rw [dif_neg h1]
    have hk : (1 : Fin 2) ∈ (rowDims N K R wf).sKept :=
      (GatherDims.mem_sKept _ _).mpr
        ⟨fun h => absurd (List.mem_singleton.mp h) (by decide : ¬ (1 : Fin 2) = 0), List.not_mem_nil⟩
    unfold GatherDims.offCoord
    rw [dif_pos hk]
    have hsk : (rowDims N K R wf).sKept = [(1 : Fin 2)] := rfl
    have hidx : List.idxOf (1 : Fin 2) (rowDims N K R wf).sKept = 0 := by rw [hsk]; decide
    simp only [hidx]
    show 0 + 0 + k.val = k.val
    omega

/-- A left fold by `and` from the bit 1 over bits that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, hl => by
    have ha : f a = 1#1 := hl a List.mem_cons_self
    have h1 : IntOp.andi 1#1 (f a) = 1#1 := IntOp.andi_eq_one.2 ⟨rfl, ha⟩
    rw [List.foldl_cons, h1]
    exact foldl_andi_one f l fun n hn => hl n (List.mem_cons_of_mem _ hn)

/-- a reduce by 'and' over the unit second axis of an [R,1] array of bits, started from 1, is 1 at row i when the row's one bit is 1 -/
theorem reduce_andi_unit_axis {R : Nat} (x : IVec ⟨2, ![R, 1]⟩ 1) (init : IVec ⟨0, ![]⟩ 1)
    (h : (⟨2, ![R, 1]⟩ : Shape).ReducesTo [1] ⟨1, ![R]⟩) (hu : 0 < (⟨0, ![]⟩ : Shape).numel) (i : Fin R)
    (hinit : init ix0 = 1#1) (hx : x (ix2 i (0 : Fin 1)) = 1#1) :
    Host.reduce IntOp.andi x init h hu (ix1 i) = 1#1 := by
  rw [Host.reduce_eq_foldl]
  have h0 : init (Shape.Idx.first hu) = 1#1 := by rw [eq_ix0 (Shape.Idx.first hu)]; exact hinit
  rw [h0]
  refine foldl_andi_one x _ ?_
  intro j hj
  have hd : h.drop j = ix1 i := by simpa using (List.mem_filter.1 hj).2
  have e0 : (j 0).val = i.val := by
    have hc := congrArg (fun q : (⟨1, ![R]⟩ : Shape).Idx => (q 0).val) hd
    rw [← h.drop_apply_val_of_eq j 0 0 (show 0 < 1 from Nat.zero_lt_one) rfl]
    exact hc
  have hj0 : j = ix2 i (0 : Fin 1) := by
    funext a
    have ha : a = (0 : Fin 2) ∨ a = (1 : Fin 2) := by
      rcases a with ⟨v, hv⟩
      have hv' : v < 2 := hv
      interval_cases v
      · exact Or.inl rfl
      · exact Or.inr rfl
    rcases ha with rfl | rfl
    · exact Fin.ext e0
    · refine Fin.ext ?_
      have := idx2_lt1 j
      show (j 1).val = 0
      omega
  rw [hj0]
  exact hx

end Cert.LibTake
-- ==== Proof.LibHostDot.lean ====
/-
  A general lemma about the host's matrix product read at an index `(p, a)`.

  * A `dot_general` of `[n, K]` by `[K, A]` on the host, contracting the left operand's second axis with the right
    operand's first, holds at `(p, a)` the sum over `k` of `l (p, k) · r (k, a)` at the extended reals: the same plain
    sum a matrix product into a zero accumulator holds there, so the two agree entry by entry.
-/
import Idealize.ShloMosaic.Lib.ValueIdx
import Idealize.ShloMosaic.PureOps.Ideal.Laws

noncomputable section

namespace Cert.LibHostDot

open Idealize.ShloMosaic Idealize.ShloMosaic.ValueIdx

variable {φ₁ φ₂ : FTy}

/-- The host's plain matrix product read at `(p, a)`: the sum over the contracted coordinate `k` of
    `l (p, k) · r (k, a)`. The two facts `hl0`, `hr1` say that the kept coordinates of the operands' indices are the
    result's (they hold of every plain record, and are decided at a literal one). -/
theorem dotGeneral_plain_apply {n K A : ℕ} (D : DotDims ⟨2, ![n, K]⟩ ⟨2, ![K, A]⟩ ⟨2, ![n, A]⟩) (prec : Option ContractPrecision)
    (hlc : D.lhsContracting = [1]) (hrc : D.rhsContracting = [0])
    (hr : D.contr.rank = 1) (hs : D.contr.size ⟨0, by omega⟩ = K)
    (hl0 : ∀ j k, (D.lhsIdx j k 0).val = (j 0).val) (hr1 : ∀ j k, (D.rhsIdx j k 1).val = (j 1).val)
    (l : FVec Ideal ⟨2, ![n, K]⟩ φ₁) (r : FVec Ideal ⟨2, ![K, A]⟩ φ₂) (p : Fin n) (a : Fin A) :
    Host.dotGeneral D prec l r (ix2 p a) = ∑ k : Fin K, l (ix2 p k) * r (ix2 k a) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p a) ((contrEquiv1 D K hr hs).symm k) = ix2 p k := funext fun c => Fin.ext (by
    match c with
    | ⟨0, _⟩ => exact hl0 _ _
    | ⟨1, _⟩ => exact (D.lhsIdx_val_of_single hlc _ _).trans hk)
  have er : D.rhsIdx (ix2 p a) ((contrEquiv1 D K hr hs).symm k) = ix2 k a := funext fun c => Fin.ext (by
    match c with
    | ⟨0, _⟩ => exact (D.rhsIdx_val_of_single hrc _ _).trans hk
    | ⟨1, _⟩ => exact hr1 _ _)
  rw [el, er]

end Cert.LibHostDot

end
-- ==== Proof.KHostRead.lean ====
/-
  The arrays the kernel's region finds, read at one entry.

  For an edge whose index word names a row of the node table, the wrap of negative indices leaves the word
  alone and the bounds mask is 1, so the looked-up value is the node column's entry at that row; the node
  column's entry at row `n` is the inner product of the node's features with a weight block.
-/
import proofs.«109225_j45054206935079_2_alg».proof.Proof.KHostDefs
import proofs.«109225_j45054206935079_2_alg».proof.Proof.Spec
import proofs.«109225_j45054206935079_2_alg».proof.Proof.LibTake
import proofs.«109225_j45054206935079_2_alg».proof.Proof.LibHostDot
import Idealize.ShloMosaic.Lib.Pipeline.Value
import Idealize.ShloMosaic.Lib.ValueLayout
import Idealize.ShloMosaic.Lib.ValueIdx

noncomputable section

open scoped BigOperators

namespace Cert.KernelIdeal.EdgeValue

open Idealize.ShloMosaic Idealize.ShloMosaic.ValueIdx Cert.KernelIdeal Cert.KernelIdeal.Gen Cert.EdgeSpec

/-- For a word in range the wrapped start index is the word. -/
theorem wrapCol_apply (idx : IVec S640000 32) (i : Fin 640000) (hi : InRange (idx (ix1 i))) :
    wrapCol idx (ix2 i (0 : Fin 1)) = idx (ix1 i) := by
  unfold wrapCol
  refine (broadcastInDim_apply _ _ _ (ix2 i (0 : Fin 1)) (ix1 i) (fun a => by
    match a with
    | ⟨0, _⟩ => rfl)).trans ?_
  show Scalar.select (IntOp.cmpi .slt (idx (ix1 i)) 0#32) (IntOp.addi (idx (ix1 i)) 50000#32) (idx (ix1 i)) = idx (ix1 i)
  rw [slt_zero_of_inRange hi]
  exact select_zero _ _

/-- For a word in range the bounds mask is 1. -/
theorem inBounds_apply (idx : IVec S640000 32) (i : Fin 640000) (hi : InRange (idx (ix1 i))) :
    inBounds idx (ix1 i) = 1#1 := by
  unfold inBounds
  refine Cert.LibTake.reduce_andi_unit_axis _ _ _ _ i rfl ?_
  show IntOp.andi (IntOp.cmpi .sge (wrapCol idx (ix2 i (0 : Fin 1))) 0#32)
      (IntOp.cmpi .sle (wrapCol idx (ix2 i (0 : Fin 1))) 49999#32) = 1#1
  rw [wrapCol_apply idx i hi, sge_zero_of_inRange hi, sle_max_of_inRange hi]
  decide

/-- The looked-up value at an edge whose index is in range: the column's entry at the index's row. -/
theorem takeVec_apply (x : FVec Ideal S50000 .f32) (idx : IVec S640000 32) (i : Fin 640000) (hi : InRange (idx (ix1 i))) :
    takeVec x idx (ix1 i) = x (ix1 (row (idx (ix1 i)))) := by
  unfold takeVec
  refine (select_apply _ _ _ _).trans ?_
  rw [inBounds_apply idx i hi]
  refine (select_one _ _).trans ?_
  show Host.gather (Cert.LibTake.vecDims 50000 640000 gather_S50000_S640000x1_S640000_n_0_n_n_0_1_1_wf) x (wrapCol idx) (ix1 i) = _
  refine (Cert.LibTake.gather_vec_apply (by decide) _ x (wrapCol idx) i).trans ?_
  refine congrArg x (congrArg ix1 (Fin.ext ?_))
  show min (wrapCol idx (ix2 i (0 : Fin 1))).toInt.toNat (50000 - 1) = min (idx (ix1 i)).toInt.toNat 49999
  rw [wrapCol_apply idx i hi]

/-- A weight block cut from the weight row: entry `d` of block `k`. -/
theorem block_apply (w : FVec Ideal S1x384 .f32) (k : Fin 3) (h : S1x384.Slices ![0, 128 * k.val] S1x128) (d : Fin 128) :
    extractStridedSlice S1x128 ![0, 128 * k.val] w h (ix2 (0 : Fin 1) d) = w (ix2 (0 : Fin 1) (wcol k d)) :=
  slice2_axis1_apply (128 * k.val) w h (0 : Fin 1) d (wcol k d) rfl

/-- The node column at row `n`: the node's features against the weight block. -/
theorem nodeProj_apply (h : FVec Ideal S50000x128 .f32) (wk : FVec Ideal S1x128 .f32) (n : Fin 50000) :
    nodeProj h wk (ix1 n) = ∑ d : Fin 128, h (ix2 n d) * wk (ix2 (0 : Fin 1) d) := by
  unfold nodeProj
  refine (shapeCast_apply _ _ (ix1 n) (ix2 n (0 : Fin 1)) (by
    rw [Shape.rowMajor_val_two, Shape.rowMajor_val_one]
    show n.val * 1 + 0 = n.val
    omega)).trans ?_
  refine (Cert.LibHostDot.dotGeneral_plain_apply dot_S50000x128_S128x1_S50000x1_1_0_0_1_n_n none rfl rfl rfl rfl
    (fun _ _ => rfl) (fun _ _ => rfl) h _ n (0 : Fin 1)).trans ?_
  exact Finset.sum_congr rfl fun d _ => congrArg (h (ix2 n d) * ·) (transpose_ix2_apply wk _ d (0 : Fin 1))

/-- The bias, broadcast over the edges. -/
theorem bias_apply (b : FVec Ideal S1 .f32) (i : Fin 640000) :
    broadcastInDim S640000 ![] bcast_S_S640000 (shapeCast S_ b shapeCasts_S1_S_) (ix1 i) = b (ix1 (0 : Fin 1)) := by
  refine (broadcastInDim_apply _ _ _ (ix1 i) ix0 (fun a => a.elim0)).trans ?_
  exact shapeCast_apply b _ ix0 (ix1 (0 : Fin 1)) rfl

/-- THE PER-EDGE TERM at an edge whose two indices are in range. -/
theorem termFlat_apply (h : FVec Ideal S50000x128 .f32) (src dst : IVec S640000 32) (w : FVec Ideal S1x384 .f32)
    (b : FVec Ideal S1 .f32) (i : Fin 640000) (hs : InRange (src (ix1 i))) (hd : InRange (dst (ix1 i))) :
    termFlat h src dst w b (ix1 i)
      = (∑ d : Fin 128, h (ix2 (row (src (ix1 i))) d) * w (ix2 (0 : Fin 1) (wcol 0 d))
          + ∑ d : Fin 128, h (ix2 (row (dst (ix1 i))) d) * w (ix2 (0 : Fin 1) (wcol 1 d)))
        + b (ix1 (0 : Fin 1)) := by
  unfold termFlat
  refine (addf_apply _ _ _).trans ?_
  refine congrArg₂ (· + ·) ?_ (bias_apply b i)
  refine (addf_apply _ _ _).trans ?_
  refine congrArg₂ (· + ·) ?_ ?_
  · refine (takeVec_apply _ src i hs).trans ?_
    refine (nodeProj_apply h _ _).trans ?_
    exact Finset.sum_congr rfl fun d _ => congrArg (h (ix2 (row (src (ix1 i))) d) * ·)
      (block_apply w 0 slices_S1x384_S1x128_0_0 d)
  · refine (takeVec_apply _ dst i hd).trans ?_
    refine (nodeProj_apply h _ _).trans ?_
    exact Finset.sum_congr rfl fun d _ => congrArg (h (ix2 (row (dst (ix1 i))) d) * ·)
      (block_apply w 1 slices_S1x384_S1x128_0_128 d)

/-- Edge `128 · R + g`: the edge at place `g` of row `R` when the edges are grouped in rows of 128. -/
def edgeOf (R : Fin 5000) (g : Fin 128) : Fin 640000 := ⟨R.val * 128 + g.val, by omega⟩

/-- A flat per-edge array regrouped in rows of 128 reads, at `(R, g)`, the edge `128 · R + g`. -/
theorem regroup_flat (f : FVec Ideal S640000 .f32) (R : Fin 5000) (g : Fin 128) :
    shapeCast S5000x128 f shapeCasts_S640000_S5000x128 (ix2 R g) = f (ix1 (edgeOf R g)) :=
  shapeCast_apply f _ (ix2 R g) (ix1 (edgeOf R g)) (by
    rw [Shape.rowMajor_val_two, Shape.rowMajor_val_one]; rfl)

/-- The edge features regrouped the same way read, at `(R, g, d)`, feature `d` of edge `128 · R + g`. -/
theorem regroup_feat (e : FVec Ideal S640000x128 .f32) (R : Fin 5000) (g : Fin 128) (d : Fin 128) :
    shapeCast S5000x128x128 e shapeCasts_S640000x128_S5000x128x128 (ix3 R g d) = e (ix2 (edgeOf R g) d) :=
  shapeCast_apply e _ (ix3 R g d) (ix2 (edgeOf R g) d) (by
    rw [Shape.rowMajor_val_three, Shape.rowMajor_val_two]
    show (R.val * 128 + g.val) * 128 + d.val = (R.val * 128 + g.val) * 128 + d.val
    rfl)

/-- The third weight block as a row reads, at `(0, 0, d)`, the weight row's entry `256 + d`. -/
theorem weightRow_apply (w : FVec Ideal S1x384 .f32) (d : Fin 128) :
    shapeCast S1x1x128 (extractStridedSlice S1x128 ![0, 256] w slices_S1x384_S1x128_0_256) shapeCasts_S1x128_S1x1x128
        (ix3 (0 : Fin 1) (0 : Fin 1) d) = w (ix2 (0 : Fin 1) (wcol 2 d)) := by
  refine (shapeCast_apply _ _ (ix3 (0 : Fin 1) (0 : Fin 1) d) (ix2 (0 : Fin 1) d) (by
    rw [Shape.rowMajor_val_three, Shape.rowMajor_val_two]; rfl)).trans ?_
  exact block_apply w 2 slices_S1x384_S1x128_0_256 d

end Cert.KernelIdeal.EdgeValue

end
-- ==== Proof.LibRows.lean ====
/-
  General lemmas about arrays with a kept unit column, read at an index, and about reductions along the last axis of a
  matrix, read at a row.

  * A vector of length `a` cast to a column `[a, 1]` holds at `(i, 0)` the vector's entry `i`.
  * A column `[a, 1]` broadcast to `[a, b]` holds at `(p, c)` the column's entry `p`.
  * Reducing a matrix `[a, b]` along its second axis, the reduced index `p` with coordinate `k` put back is `(p, k)`;
    so at the extended reals a row sum is `∑ k, v (p, k)` and a row maximum is the fold of `max` over `k ↦ v (p, k)`.
  * The same for a stack of matrices `[n, a, b]` reduced along its last axis by the host's reduction.
-/
import Idealize.ShloMosaic.Lib.Pipeline.Value
import Idealize.ShloMosaic.Lib.ValueIdx
import Idealize.ShloMosaic.PureOps.Ideal.Laws

noncomputable section

namespace Cert.LibRows

open Idealize.ShloMosaic Idealize.ShloMosaic.ValueIdx

variable {α : Type}

/-- A vector cast to a column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along a new second axis reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing `[a, b]` along its second axis: row `p` with coordinate `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- Reducing `[n, a, b]` along its last axis: `(i, p)` with coordinate `k` put back is `(i, p, k)`. -/
theorem lift_row3 {n a b : ℕ} (h : (⟨3, ![n, a, b]⟩ : Shape).Reduces [2] (⟨2, ![n, a]⟩ : Shape)) (i : Fin n) (p : Fin a)
    (k : Fin ((⟨3, ![n, a, b]⟩ : Shape).size 2)) : h.lift (ix2 i p) k = ix3 i p (⟨k.val, k.isLt⟩ : Fin b) := by
  funext c; apply Fin.ext
  fin_cases c <;> rfl

variable {φ : FTy}

/-- A lane sum along the second axis, at row `p`, is the sum of the row. -/
theorem rowSum_apply {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- A lane maximum along the second axis, at row `p`, is the fold of `max` over the row from the accumulator's value. -/
theorem rowMax_apply {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) fun k => v (ix2 p k) := by
  rw [Ideal.multiReduction_maximumf_single]
  exact congrArg (fun f => Finset.fold max (Ideal.ofBits φ acc) f (Finset.univ : Finset (Fin b)))
    (funext fun k => congrArg v (lift_row h p k))

/-- The host's reduction with a maximum body along the last axis of `[n, a, b]`, at `(i, p)`: the fold of `max` over
    that row from the initial value. -/
theorem hostRowMax3_apply {n a b : ℕ} {u : Shape} (x : FVec Ideal ⟨3, ![n, a, b]⟩ φ) (init : u.Idx → Ideal φ)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (i : Fin n) (p : Fin a) :
    Host.reduce FloatOps.maximumf x init h' hu (ix2 i p)
      = (Finset.univ : Finset (Fin b)).fold max (init (Shape.Idx.first hu)) fun k => x (ix3 i p k) := by
  rw [Host.reduce_eq_fold_single FloatOps.maximumf x init h' h hu]
  exact congrArg (fun f => Finset.fold max (init (Shape.Idx.first hu)) f (Finset.univ : Finset (Fin b)))
    (funext fun k => congrArg x (lift_row3 h i p k))

end Cert.LibRows

end
-- ==== Proof.KPay.lean ====
/-
  What the kernel's body stores, entry by entry.

  A block holds 200 rows of 128 edges; the body multiplies each edge's 128 features by the weight row,
  sums the products along the feature axis, and adds the edge's entry of the second input block:
  entry `(r, g)` of the stored block is `∑ d, x (r, g, d) · v (0, 0, d) + y (r, g)`.
-/
import proofs.«109225_j45054206935079_2_alg».proof.Proof.Gen.KernelIdeal.Skeleton
import proofs.«109225_j45054206935079_2_alg».proof.Proof.LibRows
import Idealize.ShloMosaic.Lib.Pipeline.Value
import Idealize.ShloMosaic.Lib.ValueIdx
import Idealize.ShloMosaic.PureOps.Ideal.Laws

noncomputable section

open scoped BigOperators

namespace Cert.KernelIdeal.EdgeValue

open Idealize.ShloMosaic Idealize.ShloMosaic.ValueIdx Cert.KernelIdeal Cert.KernelIdeal.Gen

/-- The weight row broadcast over the block reads, at `(r, g, d)`, the row's entry `d`. -/
theorem bcast_weight (v : FVec Ideal S1x1x128 .f32) (h : S1x1x128.Broadcasts S200x128x128)
    (r : Fin 200) (g : Fin 128) (d : Fin 128) :
    broadcastTo S200x128x128 v h (ix3 r g d) = v (ix3 (0 : Fin 1) (0 : Fin 1) d) := by
  refine broadcastTo_apply v h (ix3 r g d) (ix3 (0 : Fin 1) (0 : Fin 1) d) fun ax => ?_
  match ax with
  | ⟨0, _⟩ => rfl
  | ⟨1, _⟩ => rfl
  | ⟨2, _⟩ => rfl

/-- The lane sum along the feature axis of a block, at `(r, g)`, is the sum over the features. -/
theorem laneSum (x : FVec Ideal S200x128x128 .f32) (h : S200x128x128.Reduces [2] S200x128)
    (hφ : FKind.Formats FTy.f32) (hacc : (0x00000000#32 : BitVec 32) = FKind.add.neutral FTy.f32 hφ)
    (r : Fin 200) (g : Fin 128) :
    multiReduction .add [2] S200x128 x 0x00000000#32 h hφ hacc (ix2 r g) = ∑ d : Fin 128, x (ix3 r g d) := by
  refine (Ideal.multiReduction_add_single x 0x00000000#32 h hφ hacc (ix2 r g)).trans ?_
  exact Finset.sum_congr rfl fun k _ => congrArg x (Cert.LibRows.lift_row3 h r g k)

/-- THE STORED BLOCK at `(r, g)`: the inner product of the edge's features with the weight row, plus the
    second input's entry. -/
theorem pay_apply (x0 : Vec Ideal S200x128x128 .f32) (x2 : Vec Ideal S1x1x128 .f32) (x1 : Vec Ideal S200x128 .f32)
    (r : Fin 200) (g : Fin 128) :
    k0_pay1 (F := Ideal) x0 x2 x1 (ix2 r g)
      = (∑ d : Fin 128, x0 (ix3 r g d) * x2 (ix3 (0 : Fin 1) (0 : Fin 1) d)) + x1 (ix2 r g) := by
  unfold k0_pay1
  simp only [shapeCast_self]
  refine (addf_apply _ _ _).trans ?_
  refine congrArg (· + x1 (ix2 r g)) ?_
  refine (laneSum _ _ _ _ r g).trans ?_
  refine Finset.sum_congr rfl fun d _ => ?_
  refine (mulf_apply _ _ _).trans ?_
  exact congrArg (x0 (ix3 r g d) * ·) (bcast_weight x2 _ r g d)

end Cert.KernelIdeal.EdgeValue

end
-- ==== Proof.KBlocks.lean ====
/-
  From the kernel's blocks to its output array.

  The kernel runs over 25 grid points. At point `t` it reads rows `200 t … 200 t + 199` of the edge-feature
  array `E : [5000, 128, 128]` and of the partial-score array `T : [5000, 128]`, the whole weight row
  `Wt : [1, 1, 128]`, and writes rows `200 t … 200 t + 199` of the output `[5000, 128]`. What it writes at
  row `r`, place `g` of its block is `∑ d, x (r, g, d) · v (0, 0, d) + y (r, g)` of the three blocks it read.
  A block's element sits in its array at block index × block size + its own coordinate on every axis, so
  the 25 written blocks are the blocks of ONE function of the three arrays,
      `G (R, g) = ∑ d, E (R, g, d) · Wt (0, 0, d) + T (R, g)`,
  and, the blocks tiling the output (row `R` is in the block of point `R / 200`), the output ends holding `G`.
-/
import proofs.«109225_j45054206935079_2_alg».proof.Proof.Gen.KernelIdeal.Frame
import proofs.«109225_j45054206935079_2_alg».proof.Proof.KPay
import Idealize.ShloMosaic.Lib.Pipeline.Value
import Idealize.ShloMosaic.Lib.ValueIdx

noncomputable section

open scoped BigOperators

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The output as one function of the three arrays -/

/-- Row `R`, place `g`: the inner product of the edge's features with the weight row, plus the partial score. -/
def scoreAt (E : S5000x128x128.Idx → EReal) (T : S5000x128.Idx → EReal) (Wt : S1x1x128.Idx → EReal)
    (R : Fin 5000) (g : Fin 128) : EReal :=
  (∑ d : Fin 128, E (ix3 R g d) * Wt (ix3 (0 : Fin 1) (0 : Fin 1) d)) + T (ix2 R g)

/-- The same as a function of the output's index. -/
def G (E : S5000x128x128.Idx → EReal) (T : S5000x128.Idx → EReal) (Wt : S1x1x128.Idx → EReal) :
    S5000x128.Idx → EReal :=
  fun i => scoreAt E T Wt ⟨(i 0).val, idx2_lt0 i⟩ ⟨(i 1).val, idx2_lt1 i⟩

/-- `G` at row `R`, place `g`. -/
theorem G_apply (E : S5000x128x128.Idx → EReal) (T : S5000x128.Idx → EReal) (Wt : S1x1x128.Idx → EReal)
    (R : Fin 5000) (g : Fin 128) :
    G E T Wt (ix2 R g) = (∑ d : Fin 128, E (ix3 R g d) * Wt (ix3 (0 : Fin 1) (0 : Fin 1) d)) + T (ix2 R g) := rfl

/-! ## Where the blocks sit -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices at point `t`, decided over the 25 points: the two row-blocked inputs and the output are at
    block `(t, 0, …)`, the weight row at block `(0, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- Row `r` of point `t`'s block is a row of the array. -/
theorem row_lt (t : Fin cfg0.N) (r : Fin 200) : 200 * t.val + r.val < 5000 := by
  have hN : cfg0.N = 25 := N_0
  have h1 := t.isLt
  have h2 := r.isLt
  omega

/-- Row `r` of point `t`'s block, as a row of the array: `200 t + r`. -/
def rowOf (t : Fin cfg0.N) (r : Fin 200) : Fin 5000 := ⟨200 * t.val + r.val, row_lt t r⟩

/-! ## A block read off an array, entry by entry

A block's element sits in the array, on each axis, at block index × block size + its own coordinate. Stated for
any contents `A` of the array, so that the array the region finds is never opened. -/

/-- Point `t`'s block of a `[5000, 128, 128]` array through window 0: rows `200 t …` of the array. -/
theorem read0_apply (t : Fin cfg0.N) (A : S5000x128x128.Idx → EReal) (r : Fin 200) (g d : Fin 128) :
    (((cfg0.win 0).blk t).view.read (Elt Ideal) A : Vec Ideal S200x128x128 .f32) (ix3 r g d)
      = A (ix3 (rowOf t r) g d) := by
  obtain ⟨e0, e1, e2, -⟩ := idx_facts t
  show A (((cfg0.win 0).blk t).view.emb (ix3 r g d)) = A (ix3 (rowOf t r) g d)
  refine congrArg A ?_
  funext a
  apply Fin.ext
  match a with
  | ⟨0, _⟩ => show win0_0.index t (0 : Fin 3) * 200 + 1 * r.val = 200 * t.val + r.val; rw [e0]; omega
  | ⟨1, _⟩ => show win0_0.index t (1 : Fin 3) * 128 + 1 * g.val = g.val; rw [e1]; omega
  | ⟨2, _⟩ => show win0_0.index t (2 : Fin 3) * 128 + 1 * d.val = d.val; rw [e2]; omega

/-- Point `t`'s block of a `[5000, 128]` array through window 1: rows `200 t …` of the array. -/
theorem read1_apply (t : Fin cfg0.N) (A : S5000x128.Idx → EReal) (r : Fin 200) (g : Fin 128) :
    (((cfg0.win 1).blk t).view.read (Elt Ideal) A : Vec Ideal S200x128 .f32) (ix2 r g)
      = A (ix2 (rowOf t r) g) := by
  obtain ⟨-, -, -, e0, e1, -⟩ := idx_facts t
  show A (((cfg0.win 1).blk t).view.emb (ix2 r g)) = A (ix2 (rowOf t r) g)
  refine congrArg A ?_
  funext a
  apply Fin.ext
  match a with
  | ⟨0, _⟩ => show win0_1.index t (0 : Fin 2) * 200 + 1 * r.val = 200 * t.val + r.val; rw [e0]; omega
  | ⟨1, _⟩ => show win0_1.index t (1 : Fin 2) * 128 + 1 * g.val = g.val; rw [e1]; omega

/-- The block of a `[1, 1, 128]` array through window 2 is, at every point, the whole array. -/
theorem read2_apply (t : Fin cfg0.N) (A : S1x1x128.Idx → EReal) (d : Fin 128) :
    (((cfg0.win 2).blk t).view.read (Elt Ideal) A : Vec Ideal S1x1x128 .f32) (ix3 (0 : Fin 1) (0 : Fin 1) d)
      = A (ix3 (0 : Fin 1) (0 : Fin 1) d) := by
  obtain ⟨-, -, -, -, -, e0, e1, e2, -⟩ := idx_facts t
  show A (((cfg0.win 2).blk t).view.emb (ix3 (0 : Fin 1) (0 : Fin 1) d)) = A (ix3 (0 : Fin 1) (0 : Fin 1) d)
  refine congrArg A ?_
  funext a
  apply Fin.ext
  match a with
  | ⟨0, _⟩ => show win0_2.index t (0 : Fin 3) * 1 + 1 * 0 = 0; rw [e0]
  | ⟨1, _⟩ => show win0_2.index t (1 : Fin 3) * 1 + 1 * 0 = 0; rw [e1]
  | ⟨2, _⟩ => show win0_2.index t (2 : Fin 3) * 128 + 1 * d.val = d.val; rw [e2]; omega

/-- An element of point `t`'s output block sits in the output array at row `200 t + r`, the same place. -/
theorem out_emb (t : Fin cfg0.N) (r : Fin 200) (g : Fin 128) :
    (((cfg0.win 3).blk t).view.emb (ix2 r g) : S5000x128.Idx) = ix2 (rowOf t r) g := by
  obtain ⟨-, -, -, -, -, -, -, -, e0, e1⟩ := idx_facts t
  funext a
  apply Fin.ext
  match a with
  | ⟨0, _⟩ => show win0_3.index t (0 : Fin 2) * 200 + 1 * r.val = 200 * t.val + r.val; rw [e0]; omega
  | ⟨1, _⟩ => show win0_3.index t (1 : Fin 2) * 128 + 1 * g.val = g.val; rw [e1]; omega

/-! ## The input blocks are the arrays' blocks -/

theorem iblk0_apply (c : Dev nD) (t : Fin cfg0.N) (r : Fin 200) (g d : Fin 128) :
    (iblk m c 0 t : Vec Ideal S200x128x128 .f32) (ix3 r g d)
      = (V m c main_v15 : S5000x128x128.Idx → EReal) (ix3 (rowOf t r) g d) := by
  unfold iblk
  exact read0_apply t _ r g d

theorem iblk1_apply (c : Dev nD) (t : Fin cfg0.N) (r : Fin 200) (g : Fin 128) :
    (iblk m c 1 t : Vec Ideal S200x128 .f32) (ix2 r g)
      = (V m c main_v16 : S5000x128.Idx → EReal) (ix2 (rowOf t r) g) := by
  unfold iblk
  exact read1_apply t _ r g

theorem iblk2_apply (c : Dev nD) (t : Fin cfg0.N) (d : Fin 128) :
    (iblk m c 2 t : Vec Ideal S1x1x128 .f32) (ix3 (0 : Fin 1) (0 : Fin 1) d)
      = (V m c main_v17 : S1x1x128.Idx → EReal) (ix3 (0 : Fin 1) (0 : Fin 1) d) := by
  unfold iblk
  exact read2_apply t _ d

/-! ## What a point writes back -/

/-- For ANY three blocks that are the arrays' blocks at point `t`, entry by entry, what the body stores from them
    is point `t`'s block of `G` of the arrays. -/
theorem stored_eq (t : Fin cfg0.N) (E : S5000x128x128.Idx → EReal) (T : S5000x128.Idx → EReal)
    (Wt : S1x1x128.Idx → EReal) (x0 : Vec Ideal S200x128x128 .f32) (x1 : Vec Ideal S200x128 .f32)
    (x2 : Vec Ideal S1x1x128 .f32)
    (h0 : ∀ (r : Fin 200) (g d : Fin 128), x0 (ix3 r g d) = E (ix3 (rowOf t r) g d))
    (h1 : ∀ (r : Fin 200) (g : Fin 128), x1 (ix2 r g) = T (ix2 (rowOf t r) g))
    (h2 : ∀ d : Fin 128, x2 (ix3 (0 : Fin 1) (0 : Fin 1) d) = Wt (ix3 (0 : Fin 1) (0 : Fin 1) d)) :
    (cfg0.win 3).cut (grid0.coords t) (k0_pay1 (F := Ideal) x0 x2 x1)
      = ((cfg0.win 3).blk t).view.read (Elt Ideal) (G E T Wt) := by
  funext y
  obtain ⟨r, g, rfl⟩ : ∃ (r : Fin 200) (g : Fin 128), y = ix2 r g := ⟨y 0, y 1, eq_ix2 y⟩
  show k0_pay1 (F := Ideal) x0 x2 x1 (ix2 r g) = G E T Wt (((cfg0.win 3).blk t).view.emb (ix2 r g))
  rw [out_emb t r g, G_apply]
  refine (pay_apply x0 x2 x1 r g).trans ?_
  rw [h1 r g]
  refine congrArg (· + T (ix2 (rowOf t r) g)) ?_
  exact Finset.sum_congr rfl fun d _ => by rw [h0 r g d, h2 d]

/-- WHAT POINT `t` WRITES BACK is block `t` of `G` of the three arrays as the region finds them. -/
theorem flushed_eq (c : Dev nD) (t : Fin cfg0.N) :
    (dats m 0 c).flushed 3 t = ((cfg0.win 3).blk t).view.read (Elt Ideal)
      (G (V m c main_v15) (V m c main_v16) (V m c main_v17)) := by
  show (cfg0.win 3).cut (grid0.coords t) ((dats m 0 c).after 3 t) = _
  rw [after0_3]
  unfold out0_3
  rw [View.canon_unit_zero hz2]
  simp only [View.ld_unit_zero (S := S200x128x128) hz3, View.ld_unit_zero (S := S1x1x128) hz3,
    View.ld_unit_zero (S := S200x128) hz2]
  exact stored_eq t _ _ _ _ _ _ (iblk0_apply m c t) (iblk1_apply m c t) (iblk2_apply m c t)

/-! ## The blocks tile the output -/

/-- An index of the output is in point `t`'s block iff each coordinate is in the block's range on its axis. -/
theorem mem_blk (t : Fin cfg0.N) (i : S5000x128.Idx) :
    i ∈ ((cfg0.win 3).blk t).view.set ↔ ∀ a : Fin 2, win0_3.index t a * S200x128.size a ≤ (i a).val
      ∧ (i a).val < win0_3.index t a * S200x128.size a + S200x128.size a := by
  show i ∈ ((View.whole main_v18).slice (win0_3.rect t)).set ↔ _
  rw [View.set_slice_whole, Rect.mem_set_unit]
  exact Iff.rfl

/-- Every index of the output is in some point's block: row `R` in the block of point `R / 200`. -/
theorem cover (i : S5000x128.Idx) :
    ∃ t : Fin cfg0.N, (cfg0.win 3).flush t = true ∧ i ∈ ((cfg0.win 3).blk t).view.set := by
  have hN : cfg0.N = 25 := N_0
  have hi0 : (i 0).val < 5000 := idx2_lt0 i
  have hi1 : (i 1).val < 128 := idx2_lt1 i
  have ht : (i 0).val / 200 < cfg0.N := by rw [hN]; omega
  refine ⟨⟨(i 0).val / 200, ht⟩, flush0_3 _, ?_⟩
  rw [mem_blk]
  obtain ⟨-, -, -, -, -, -, -, -, e0, e1⟩ := idx_facts ⟨(i 0).val / 200, ht⟩
  intro a
  match a with
  | ⟨0, _⟩ =>
    show win0_3.index ⟨(i 0).val / 200, ht⟩ (0 : Fin 2) * 200 ≤ (i 0).val
      ∧ (i 0).val < win0_3.index ⟨(i 0).val / 200, ht⟩ (0 : Fin 2) * 200 + 200
    rw [e0]; show (i 0).val / 200 * 200 ≤ (i 0).val ∧ (i 0).val < (i 0).val / 200 * 200 + 200; omega
  | ⟨1, _⟩ =>
    show win0_3.index ⟨(i 0).val / 200, ht⟩ (1 : Fin 2) * 128 ≤ (i 1).val
      ∧ (i 1).val < win0_3.index ⟨(i 0).val / 200, ht⟩ (1 : Fin 2) * 128 + 128
    rw [e1]; omega

/-! ## The output array after the run -/

/-- The output array ends holding `G` of the three arrays as the region finds them. -/
theorem final (c : Dev nD) :
    (dats m 0 c).arrAt 3 cfg0.N = G (V m c main_v15) (V m c main_v16) (V m c main_v17) :=
  (dats m 0 c).arrAt_eq_of_cover 3 (G (V m c main_v15) (V m c main_v16) (V m c main_v17))
    (fun t _ => flushed_eq m c t) cover

/-- THE OUTPUT, entry by entry: row `R`, place `g` holds the inner product of the edge's features with the weight row
    plus the partial score. -/
theorem final_apply_V (c : Dev nD) (R : Fin 5000) (g : Fin 128) :
    ((dats m 0 c).arrAt 3 cfg0.N : S5000x128.Idx → EReal) (ix2 R g)
      = HAdd.hAdd (α := EReal) (β := EReal) (γ := EReal)
          (∑ d : Fin 128, HMul.hMul (α := EReal) (β := EReal) (γ := EReal)
            ((V m c main_v15 : S5000x128x128.Idx → EReal) (ix3 R g d))
            ((V m c main_v17 : S1x1x128.Idx → EReal) (ix3 (0 : Fin 1) (0 : Fin 1) d)))
          ((V m c main_v16 : S5000x128.Idx → EReal) (ix2 R g)) :=
  (congrFun (final m c) (ix2 R g)).trans (G_apply (V m c main_v15) (V m c main_v16) (V m c main_v17) R g)

/-- The same with the three arrays named: for `E`, `T`, `Wt` the arrays the region finds, row `R`, place `g` of the
    output holds `∑ d, E (R, g, d) · Wt (0, 0, d) + T (R, g)`. -/
theorem final_apply (c : Dev nD) (E : S5000x128x128.Idx → EReal) (T : S5000x128.Idx → EReal)
    (Wt : S1x1x128.Idx → EReal) (hE : (V m c main_v15 : S5000x128x128.Idx → EReal) = E)
    (hT : (V m c main_v16 : S5000x128.Idx → EReal) = T) (hW : (V m c main_v17 : S1x1x128.Idx → EReal) = Wt)
    (R : Fin 5000) (g : Fin 128) :
    ((dats m 0 c).arrAt 3 cfg0.N : S5000x128.Idx → EReal) (ix2 R g)
      = (∑ d : Fin 128, E (ix3 R g d) * Wt (ix3 (0 : Fin 1) (0 : Fin 1) d)) + T (ix2 R g) := by
  subst hE hT hW
  exact final_apply_V m c R g

end Cert.KernelIdeal.EdgeValue

end
-- ==== Proof.ScoreArr.lean ====
/-
  The edge scores as one array of shape [640000, 1]: entry `(i, 0)` is the score of edge `i`.
-/
import proofs.«109225_j45054206935079_2_alg».proof.Proof.Spec

noncomputable section

namespace Cert.EdgeSpec

open Idealize.ShloMosaic Idealize.ShloMosaic.ValueIdx

/-- The column of edge scores. -/
def scoreArr (h : (⟨2, ![50000, 128]⟩ : Shape).Idx → EReal) (e : (⟨2, ![640000, 128]⟩ : Shape).Idx → EReal)
    (src dst : (⟨1, ![640000]⟩ : Shape).Idx → BitVec 32) (w : (⟨2, ![1, 384]⟩ : Shape).Idx → EReal)
    (b : (⟨1, ![1]⟩ : Shape).Idx → EReal) : (⟨2, ![640000, 1]⟩ : Shape).Idx → EReal :=
  fun j => score h e src dst w b ⟨(j 0).val, idx2_lt0 j⟩

/-- Its entry `(i, u)` is the score of edge `i`. -/
theorem scoreArr_apply (h : (⟨2, ![50000, 128]⟩ : Shape).Idx → EReal) (e : (⟨2, ![640000, 128]⟩ : Shape).Idx → EReal)
    (src dst : (⟨1, ![640000]⟩ : Shape).Idx → BitVec 32) (w : (⟨2, ![1, 384]⟩ : Shape).Idx → EReal)
    (b : (⟨1, ![1]⟩ : Shape).Idx → EReal) (i : Fin 640000) (u : Fin 1) :
    scoreArr h e src dst w b (ix2 i u) = score h e src dst w b i := rfl

/-- An array of shape [640000, 1] that holds the score of edge `i` at `(i, 0)` for every `i` is the column of scores. -/
theorem eq_scoreArr (h : (⟨2, ![50000, 128]⟩ : Shape).Idx → EReal) (e : (⟨2, ![640000, 128]⟩ : Shape).Idx → EReal)
    (src dst : (⟨1, ![640000]⟩ : Shape).Idx → BitVec 32) (w : (⟨2, ![1, 384]⟩ : Shape).Idx → EReal)
    (b : (⟨1, ![1]⟩ : Shape).Idx → EReal) (f : (⟨2, ![640000, 1]⟩ : Shape).Idx → EReal)
    (hf : ∀ i : Fin 640000, f (ix2 i (0 : Fin 1)) = score h e src dst w b i) : f = scoreArr h e src dst w b := by
  funext j
  obtain ⟨i, u, rfl⟩ : ∃ (i : Fin 640000) (u : Fin 1), j = ix2 i u := ⟨j 0, j 1, eq_ix2 j⟩
  obtain rfl : u = 0 := Subsingleton.elim _ _
  exact hf i

end Cert.EdgeSpec

end
-- ==== Proof.KOut.lean ====
/-
  The kernel program's result, entry by entry.

  After the region the host flattens the [5000, 128] output back to one score per edge: entry `(i, 0)` of the
  result is the output's entry at row `i / 128`, place `i % 128`.  That entry is the inner product of the
  edge's features with the third weight block plus the per-edge term (source projection + destination
  projection + bias); sums of extended reals may be regrouped and reordered freely, so this is the edge's score.
-/
import proofs.«109225_j45054206935079_2_alg».proof.Proof.KHostRead
import proofs.«109225_j45054206935079_2_alg».proof.Proof.KBlocks
import proofs.«109225_j45054206935079_2_alg».proof.Proof.ScoreArr

noncomputable section

open scoped BigOperators

namespace Cert.KernelIdeal.EdgeValue

open Idealize.ShloMosaic Idealize.ShloMosaic.TcCoe Idealize.SL.Sem Idealize.ShloMosaic.StableHlo
open Idealize.ShloMosaic.ValueIdx Cert.KernelIdeal Cert.KernelIdeal.Gen Cert.EdgeSpec

variable (m : (ℓ : Loc nD τ sig) → Buf (Elt Ideal) ℓ)

/-- The result buffer after the host's last line: the output rows, flattened. -/
theorem tail_eq (c : Dev nD) :
    (Pipeline.afterTail₀ cfgs (dats m) 0 (V0 m) [hostOps1] c main_v19 : S640000x1.Idx → EReal)
      = shapeCast S640000x1 ((dats m 0 c).arrAt 3 cfg0.N : S5000x128.Idx → EReal) shapeCasts_S5000x128_S640000x1 := by
  unfold Pipeline.afterTail₀
  show StableHlo.after hostOps1 _ (Proc.devRef .tc main_v19) = _
  after_results
  have e : Pipeline.withArrays (cfgs 0).spec c (V0 m c) (fun w => (dats m 0 c).arrAt w (cfgs 0).N) (Proc.tc.devRef main_v18)
      = (dats m 0 c).arrAt 3 cfg0.N := Pipeline.withArrays_arr spec0 launch0.win.arr_inj c _ _ 3
  rw [e]
  rfl

/-- Edge `i` sits at row `i / 128`, place `i % 128`. -/
theorem edgeOf_divMod (i : Fin 640000) :
    edgeOf ⟨i.val / 128, by have := i.isLt; omega⟩ ⟨i.val % 128, Nat.mod_lt _ (by decide)⟩ = i :=
  Fin.ext (by show i.val / 128 * 128 + i.val % 128 = i.val; omega)

/-- Three terms and a bias, regrouped: `x + ((s + d) + b) = ((s + d) + x) + b`. -/
theorem regroup (x s d b : EReal) : x + ((s + d) + b) = ((s + d) + x) + b := by
  rw [add_comm x, add_right_comm]

/-- The output entry of edge `i`, written over the argument arrays: the edge's inner product with the third weight
    block plus the per-edge term is the edge's score. -/
theorem entry_eq_score (h : FVec Ideal S50000x128 .f32) (e : FVec Ideal S640000x128 .f32) (src dst : IVec S640000 32)
    (w : FVec Ideal S1x384 .f32) (b : FVec Ideal S1 .f32) (i : Fin 640000) (hs : InRange (src (ix1 i)))
    (hd : InRange (dst (ix1 i))) (R : Fin 5000) (g : Fin 128) (hRg : edgeOf R g = i) :
    (∑ d : Fin 128, shapeCast S5000x128x128 e shapeCasts_S640000x128_S5000x128x128 (ix3 R g d)
        * shapeCast S1x1x128 (extractStridedSlice S1x128 ![0, 256] w slices_S1x384_S1x128_0_256) shapeCasts_S1x128_S1x1x128
            (ix3 (0 : Fin 1) (0 : Fin 1) d))
      + shapeCast S5000x128 (termFlat h src dst w b) shapeCasts_S640000_S5000x128 (ix2 R g)
      = score h e src dst w b i := by
  rw [regroup_flat, hRg, termFlat_apply h src dst w b i hs hd]
  have esum : (∑ d : Fin 128, shapeCast S5000x128x128 e shapeCasts_S640000x128_S5000x128x128 (ix3 R g d)
        * shapeCast S1x1x128 (extractStridedSlice S1x128 ![0, 256] w slices_S1x384_S1x128_0_256) shapeCasts_S1x128_S1x1x128
            (ix3 (0 : Fin 1) (0 : Fin 1) d))
      = ∑ d : Fin 128, e (ix2 i d) * w (ix2 (0 : Fin 1) (wcol 2 d)) :=
    Finset.sum_congr rfl fun d _ => by rw [regroup_feat, weightRow_apply, hRg]
  rw [esum]
  exact regroup _ _ _ _

/-- THE KERNEL PROGRAM'S RESULT at edge `i`, when the edge's two indices are rows of the node table. -/
theorem result_apply (c : Dev nD) (i : Fin 640000)
    (hs : InRange ((m ((c.tc : Thread nD τ).loc main_arg2) : S640000.Idx → BitVec 32) (ix1 i)))
    (hd : InRange ((m ((c.tc : Thread nD τ).loc main_arg3) : S640000.Idx → BitVec 32) (ix1 i))) :
    (Pipeline.afterTail₀ cfgs (dats m) 0 (V0 m) [hostOps1] c main_v19 : S640000x1.Idx → EReal) (ix2 i (0 : Fin 1))
      = score (m ((c.tc : Thread nD τ).loc main_arg0) : S50000x128.Idx → EReal)
          (m ((c.tc : Thread nD τ).loc main_arg1) : S640000x128.Idx → EReal)
          (m ((c.tc : Thread nD τ).loc main_arg2) : S640000.Idx → BitVec 32)
          (m ((c.tc : Thread nD τ).loc main_arg3) : S640000.Idx → BitVec 32)
          (m ((c.tc : Thread nD τ).loc main_arg4) : S1x384.Idx → EReal)
          (m ((c.tc : Thread nD τ).loc main_arg5) : S1.Idx → EReal) i := by
  rw [tail_eq m c]
  have hR : i.val / 128 < 5000 := by have := i.isLt; omega
  have hg : i.val % 128 < 128 := Nat.mod_lt _ (by decide)
  refine (shapeCast_apply _ _ (ix2 i (0 : Fin 1)) (ix2 (⟨i.val / 128, hR⟩ : Fin 5000) (⟨i.val % 128, hg⟩ : Fin 128)) (by
    rw [Shape.rowMajor_val_two, Shape.rowMajor_val_two]
    show i.val / 128 * 128 + i.val % 128 = i.val * 1 + 0
    omega)).trans ?_
  rw [final_apply m c _ _ _ (V_edges m c) (V_term m c) (V_weight m c) ⟨i.val / 128, hR⟩ ⟨i.val % 128, hg⟩]
  exact entry_eq_score _ _ _ _ _ _ i hs hd _ _ (edgeOf_divMod i)

end Cert.KernelIdeal.EdgeValue

end
-- ==== Proof.KRun.lean ====
/-
  The kernel program's run with its result named: every weakly fair execution terminates with the result
  buffer holding the column of edge scores and the argument arrays unchanged, provided every source and
  destination index is a row of the node table.
-/
import proofs.«109225_j45054206935079_2_alg».proof.Proof.KOut

noncomputable section

namespace Cert.KernelIdeal.EdgeValue

open Idealize.ShloMosaic Idealize.ShloMosaic.TcCoe Idealize.SL.Sem
open Idealize.ShloMosaic.ValueIdx Cert.KernelIdeal Cert.KernelIdeal.Gen Cert.EdgeSpec

/-- The kernel program ends with the scores in its result buffer. -/
theorem run (m : (ℓ : Loc nD τ sig) → Buf (Elt Ideal) ℓ) (ρ : Dev nD → PrngReg)
    (hin : ∀ (c : Dev nD) (i : Fin 640000),
      InRange ((m ((c.tc : Thread nD τ).loc main_arg2) : S640000.Idx → BitVec 32) (ix1 i))
      ∧ InRange ((m ((c.tc : Thread nD τ).loc main_arg3) : S640000.Idx → BitVec 32) (ix1 i))) :
    θ_run (defs (F := Ideal)) (onTc (τ := τ) (main (F := Ideal))) ⟨m, fun _ => 0, ρ⟩ (fun r => ∀ c : Dev nD,
      r.2.mem ((c.tc : Thread nD τ).loc main_v19)
        = scoreArr (m ((c.tc : Thread nD τ).loc main_arg0) : S50000x128.Idx → EReal)
            (m ((c.tc : Thread nD τ).loc main_arg1) : S640000x128.Idx → EReal)
            (m ((c.tc : Thread nD τ).loc main_arg2) : S640000.Idx → BitVec 32)
            (m ((c.tc : Thread nD τ).loc main_arg3) : S640000.Idx → BitVec 32)
            (m ((c.tc : Thread nD τ).loc main_arg4) : S1x384.Idx → EReal)
            (m ((c.tc : Thread nD τ).loc main_arg5) : S1.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v19 (Pipeline.mem_restRefs_of main_v19 (by decide) (by decide))).trans
        (eq_scoreArr _ _ _ _ _ _ _ fun i => result_apply m c i (hin c i).1 (hin c i).2),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.EdgeValue

end
-- ==== Proof.LibAfterSplit.lean ====
/-
  The buffer contents after a straight line of host operations, cut at any position: running the first `k` operations
  and then the rest is running the whole line. A long line whose intermediate results each have several readers can
  then be evaluated one stretch at a time, every stretch from a valuation that is just a variable, instead of as one term
  in which every shared intermediate is written out once per reader.
-/
import Idealize.ShloMosaic.Lib.StableHlo.Run

noncomputable section

namespace Cert.LibAfterSplit

open Idealize.ShloMosaic Idealize.ShloMosaic.StableHlo

variable {τ : Topo} {sig : RefSig} {Val : EltTy → Type}

/-- Two lines run one after the other: the second starts from what the first leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line cut after its first `k` operations. -/
theorem after_split (k : Nat) (l : List (HloOp τ sig Val)) (V : Valuation τ sig Val) :
    after l V = after (l.drop k) (after (l.take k) V) := by
  rw [← after_append, List.take_append_drop]

end Cert.LibAfterSplit

end
-- ==== Proof.RefRun.lean ====
/-
  The plain formula's program as a straight line of its sixty operations, and what its run leaves in the result
  buffer: one term `out` of the six argument arrays.

  The program takes the rows of the node table named by the source indices and by the destination indices (each
  "take" wraps a negative index by the table's height, checks the wrapped index against the table's bounds,
  gathers the row, and keeps the gathered row where the check passed and a not-a-number elsewhere), multiplies each
  of the two row arrays and the edge array by its own block of the weight row (a slice of the row, transposed to a
  column), adds the three products and the bias broadcast to every edge.
-/
import proofs.«109225_j45054206935079_2_alg».proof.Proof.Gen.ReferenceIdeal
import Idealize.ShloMosaic.Lib.StableHlo.Run
import proofs.«109225_j45054206935079_2_alg».proof.Proof.LibAfterSplit
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The result as a term -/

/-- An index word with a negative one wrapped around by the table's height. -/
def wrapIdx (idx : IVec S640000 32) : IVec S640000 32 :=
  select (cmpi .slt idx (broadcastInDim S640000 ![] bcast_S_S640000 (constantI S_ 32 0#32)))
    (addi idx (broadcastInDim S640000 ![] bcast_S_S640000 (constantI S_ 32 50000#32))) idx

/-- The wrapped indices as a column of start indices. -/
def idxCol (idx : IVec S640000 32) : IVec S640000x1 32 :=
  broadcastInDim S640000x1 ![0] bcast_S640000_S640000x1_0 (wrapIdx idx)

/-- The bounds check of each start index: not negative, and at most the last row. -/
def maskCol (idx : IVec S640000 32) : IVec S640000x1 1 :=
  andi (cmpi .sge (idxCol idx) (broadcastInDim S640000x1 ![] bcast_S_S640000x1 (constantI S_ 32 0#32)))
    (cmpi .sle (idxCol idx) (broadcastInDim S640000x1 ![0, 1] bcast_S1x1_S640000x1_0_1
      (broadcastInDim S1x1 ![1] bcast_S1_S1x1_1 (constantI S1 32 49999#32))))

/-- The check reduced over the column's one entry. -/
def mask (idx : IVec S640000 32) : IVec S640000 1 :=
  Host.reduce IntOp.andi (maskCol idx) (constantI S_ 1 1#1) reducesTo_S640000x1_S640000_d1 h_S_

/-- The rows of the table the start indices name (each clamped into the table). -/
def gathered (h : FVec Ideal S50000x128 .f32) (idx : IVec S640000 32) : FVec Ideal S640000x128 .f32 :=
  Host.gather gather_S50000x128_S640000x1_S640000x128_1_0_n_n_0_1_1128 h (idxCol idx)

/-- One "take": the gathered row where the check passed, a not-a-number elsewhere. -/
def takeRows (h : FVec Ideal S50000x128 .f32) (idx : IVec S640000 32) : FVec Ideal S640000x128 .f32 :=
  select (broadcastInDim S640000x128 ![0] bcast_S640000_S640000x128_0 (mask idx)) (gathered h idx)
    (broadcastInDim S640000x128 ![] bcast_S_S640000x128 (constant (F := Ideal) S_ .f32 0x7FC00000#32))

/-- The weight row's three blocks, each as a column. -/
def wT0 (w : FVec Ideal S1x384 .f32) : FVec Ideal S128x1 .f32 :=
  transpose S128x1 [1, 0] (extractStridedSlice S1x128 ![0, 0] w slices_S1x384_S1x128_0_0) transposes_S1x128_S128x1_1_0
@[inherit_doc wT0]
def wT1 (w : FVec Ideal S1x384 .f32) : FVec Ideal S128x1 .f32 :=
  transpose S128x1 [1, 0] (extractStridedSlice S1x128 ![0, 128] w slices_S1x384_S1x128_0_128) transposes_S1x128_S128x1_1_0
@[inherit_doc wT0]
def wT2 (w : FVec Ideal S1x384 .f32) : FVec Ideal S128x1 .f32 :=
  transpose S128x1 [1, 0] (extractStridedSlice S1x128 ![0, 256] w slices_S1x384_S1x128_0_256) transposes_S1x128_S128x1_1_0

/-- A row array times a weight column. -/
def dotCol (l : FVec Ideal S640000x128 .f32) (r : FVec Ideal S128x1 .f32) : FVec Ideal S640000x1 .f32 :=
  Host.dotGeneral (F := Ideal) dot_S640000x128_S128x1_S640000x1_1_0_0_1_n_n none l r

/-- The bias at every edge. -/
def biasCol (b : FVec Ideal S1 .f32) : FVec Ideal S640000x1 .f32 :=
  broadcastInDim S640000x1 ![0, 1] bcast_S1x1_S640000x1_0_1 (broadcastInDim S1x1 ![1] bcast_S1_S1x1_1 b)

/-- the reference's result as one term of the six argument arrays -/
def out (h : FVec Ideal S50000x128 .f32) (e : FVec Ideal S640000x128 .f32) (src dst : IVec S640000 32)
    (w : FVec Ideal S1x384 .f32) (b : FVec Ideal S1 .f32) : FVec Ideal S640000x1 .f32 :=
  addf (addf (addf (dotCol (takeRows h src) (wT0 w)) (dotCol (takeRows h dst) (wT1 w))) (dotCol e (wT2 w))) (biasCol b)

/-! ## The program as a line of operations -/

variable {F : FTy → Type} [FloatOps F]

/-- The first stretch: the three slices of the weight row, then the "take" at the source indices (its call of the
    select function unfolded at the call's own buffers). -/
abbrev seg1 : List (HloOp τ sig (Elt F)) :=
  [ unary main_arg4 main_v0 ((extractStridedSlice S1x128 ![0, 0] · slices_S1x384_S1x128_0_0) : (⟨S1x384, .f32⟩ : BufTy).Contents (Elt F) → (⟨S1x128, .f32⟩ : BufTy).Contents (Elt F)),
    unary main_arg4 main_v1 ((extractStridedSlice S1x128 ![0, 128] · slices_S1x384_S1x128_0_128) : (⟨S1x384, .f32⟩ : BufTy).Contents (Elt F) → (⟨S1x128, .f32⟩ : BufTy).Contents (Elt F)),
    unary main_arg4 main_v2 ((extractStridedSlice S1x128 ![0, 256] · slices_S1x384_S1x128_0_256) : (⟨S1x384, .f32⟩ : BufTy).Contents (Elt F) → (⟨S1x128, .f32⟩ : BufTy).Contents (Elt F)),
    TRef.nullary main_call0.c (constantI S_ 32 0#32),
    TRef.unary main_call0.c main_call0.v0 (broadcastInDim S640000 ![] bcast_S_S640000),
    TRef.binary (.of main_arg2) main_call0.v0 main_call0.v1 (cmpi .slt),
    TRef.nullary main_call0.c_0 (constantI S_ 32 50000#32),
    TRef.unary main_call0.c_0 main_call0.v2 (broadcastInDim S640000 ![] bcast_S_S640000),
    TRef.binary (.of main_arg2) main_call0.v2 main_call0.v3 addi,
    TRef.ternary main_call0.v1 main_call0.v3 (.of main_arg2) main_call0.call0.v0 select,
    TRef.unary main_call0.call0.v0 main_call0.v5 (broadcastInDim S640000x1 ![0] bcast_S640000_S640000x1_0),
    TRef.nullary main_call0.c_1 (constantI S1 32 49999#32),
    TRef.nullary main_call0.c_2 (constantI S_ 32 0#32),
    TRef.unary main_call0.c_2 main_call0.v6 (broadcastInDim S640000x1 ![] bcast_S_S640000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S640000x1 ![0, 1] bcast_S1x1_S640000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S640000x1_S640000_d1 h_S_),
    TRef.binary (.of main_arg0) main_call0.v5 main_call0.v13 (fun x i => Host.gather gather_S50000x128_S640000x1_S640000x128_1_0_n_n_0_1_1128 x i),
    TRef.unary main_call0.v12 main_call0.v14 (broadcastInDim S640000x128 ![0] bcast_S640000_S640000x128_0),
    TRef.nullary main_call0.cst (constant S_ .f32 0x7FC00000#32),
    TRef.unary main_call0.cst main_call0.v15 (broadcastInDim S640000x128 ![] bcast_S_S640000x128),
    TRef.ternary main_call0.v14 main_call0.v13 main_call0.v15 main_call0.v16 select ]

/-- The second stretch: the first weight column, the first product, then the "take" at the destination indices. -/
abbrev seg2 : List (HloOp τ sig (Elt F)) :=
  [ unary main_v0 main_v4 ((transpose S128x1 [1, 0] · transposes_S1x128_S128x1_1_0) : (⟨S1x128, .f32⟩ : BufTy).Contents (Elt F) → (⟨S128x1, .f32⟩ : BufTy).Contents (Elt F)),
    binary main_v3 main_v4 main_v5 ((fun l r => Host.dotGeneral dot_S640000x128_S128x1_S640000x1_1_0_0_1_n_n none l r) : (⟨S640000x128, .f32⟩ : BufTy).Contents (Elt F) → (⟨S128x1, .f32⟩ : BufTy).Contents (Elt F) → (⟨S640000x1, .f32⟩ : BufTy).Contents (Elt F)),
    TRef.nullary main_call1.c (constantI S_ 32 0#32),
    TRef.unary main_call1.c main_call1.v0 (broadcastInDim S640000 ![] bcast_S_S640000),
    TRef.binary (.of main_arg3) main_call1.v0 main_call1.v1 (cmpi .slt),
    TRef.nullary main_call1.c_0 (constantI S_ 32 50000#32),
    TRef.unary main_call1.c_0 main_call1.v2 (broadcastInDim S640000 ![] bcast_S_S640000),
    TRef.binary (.of main_arg3) main_call1.v2 main_call1.v3 addi,
    TRef.ternary main_call1.v1 main_call1.v3 (.of main_arg3) main_call1.call0.v0 select,
    TRef.unary main_call1.call0.v0 main_call1.v5 (broadcastInDim S640000x1 ![0] bcast_S640000_S640000x1_0),
    TRef.nullary main_call1.c_1 (constantI S1 32 49999#32),
    TRef.nullary main_call1.c_2 (constantI S_ 32 0#32),
    TRef.unary main_call1.c_2 main_call1.v6 (broadcastInDim S640000x1 ![] bcast_S_S640000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S640000x1 ![0, 1] bcast_S1x1_S640000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S640000x1_S640000_d1 h_S_),
    TRef.binary (.of main_arg0) main_call1.v5 main_call1.v13 (fun x i => Host.gather gather_S50000x128_S640000x1_S640000x128_1_0_n_n_0_1_1128 x i),
    TRef.unary main_call1.v12 main_call1.v14 (broadcastInDim S640000x128 ![0] bcast_S640000_S640000x128_0),
    TRef.nullary main_call1.cst (constant S_ .f32 0x7FC00000#32),
    TRef.unary main_call1.cst main_call1.v15 (broadcastInDim S640000x128 ![] bcast_S_S640000x128),
    TRef.ternary main_call1.v14 main_call1.v13 main_call1.v15 main_call1.v16 select ]

/-- The third stretch: the other two weight columns and products, the sums, the bias broadcast and added. -/
abbrev seg3 : List (HloOp τ sig (Elt F)) :=
  [ unary main_v1 main_v7 ((transpose S128x1 [1, 0] · transposes_S1x128_S128x1_1_0) : (⟨S1x128, .f32⟩ : BufTy).Contents (Elt F) → (⟨S128x1, .f32⟩ : BufTy).Contents (Elt F)),
    binary main_v6 main_v7 main_v8 ((fun l r => Host.dotGeneral dot_S640000x128_S128x1_S640000x1_1_0_0_1_n_n none l r) : (⟨S640000x128, .f32⟩ : BufTy).Contents (Elt F) → (⟨S128x1, .f32⟩ : BufTy).Contents (Elt F) → (⟨S640000x1, .f32⟩ : BufTy).Contents (Elt F)),
    binary main_v5 main_v8 main_v9 (addf : (⟨S640000x1, .f32⟩ : BufTy).Contents (Elt F) → (⟨S640000x1, .f32⟩ : BufTy).Contents (Elt F) → (⟨S640000x1, .f32⟩ : BufTy).Contents (Elt F)),
    unary main_v2 main_v10 ((transpose S128x1 [1, 0] · transposes_S1x128_S128x1_1_0) : (⟨S1x128, .f32⟩ : BufTy).Contents (Elt F) → (⟨S128x1, .f32⟩ : BufTy).Contents (Elt F)),
    binary main_arg1 main_v10 main_v11 ((fun l r => Host.dotGeneral dot_S640000x128_S128x1_S640000x1_1_0_0_1_n_n none l r) : (⟨S640000x128, .f32⟩ : BufTy).Contents (Elt F) → (⟨S128x1, .f32⟩ : BufTy).Contents (Elt F) → (⟨S640000x1, .f32⟩ : BufTy).Contents (Elt F)),
    binary main_v9 main_v11 main_v12 (addf : (⟨S640000x1, .f32⟩ : BufTy).Contents (Elt F) → (⟨S640000x1, .f32⟩ : BufTy).Contents (Elt F) → (⟨S640000x1, .f32⟩ : BufTy).Contents (Elt F)),
    unary main_arg5 main_v13 (broadcastInDim S1x1 ![1] bcast_S1_S1x1_1 : (⟨S1, .f32⟩ : BufTy).Contents (Elt F) → (⟨S1x1, .f32⟩ : BufTy).Contents (Elt F)),
    unary main_v13 main_v14 (broadcastInDim S640000x1 ![0, 1] bcast_S1x1_S640000x1_0_1 : (⟨S1x1, .f32⟩ : BufTy).Contents (Elt F) → (⟨S640000x1, .f32⟩ : BufTy).Contents (Elt F)),
    binary main_v12 main_v14 main_v15 (addf : (⟨S640000x1, .f32⟩ : BufTy).Contents (Elt F) → (⟨S640000x1, .f32⟩ : BufTy).Contents (Elt F) → (⟨S640000x1, .f32⟩ : BufTy).Contents (Elt F)) ]

/-- @main's sixty operations in order, the two calls of the "take" function unfolded: the three stretches. -/
abbrev ops : List (HloOp τ sig (Elt F)) := seg1 ++ (seg2 ++ seg3)

-- sixty binds re-associated: the rewrite under the chain recurses once per statement
set_option maxRecDepth 2048 in
/-- @main is that straight line: the functions' definitions unfolded at their calls, both sides are one chain of
    steps once sequencing is re-associated. -/
theorem main_eq (c : Dev nD) : main (F := F) c = seq ops := by
  simp only [main, fn_take.body, fn_where.body, ops, seg1, seg2, seg3, List.cons_append, List.nil_append, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem seg1_sub : (seg1 : List (HloOp τ sig (Elt F))).Forall fun op => op.bufs ⊆ tcRefs τ sig :=
  ⟨unary_bufs_sub .., unary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem seg2_sub : (seg2 : List (HloOp τ sig (Elt F))).Forall fun op => op.bufs ⊆ tcRefs τ sig :=
  ⟨unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem seg3_sub : (seg3 : List (HloOp τ sig (Elt F))).Forall fun op => op.bufs ⊆ tcRefs τ sig :=
  ⟨unary_bufs_sub .., binary_bufs_sub .., binary_bufs_sub .., unary_bufs_sub .., binary_bufs_sub .., binary_bufs_sub ..,
    unary_bufs_sub .., unary_bufs_sub .., binary_bufs_sub ..⟩
theorem ops_sub : (ops : List (HloOp τ sig (Elt F))).Forall fun op => op.bufs ⊆ tcRefs τ sig :=
  List.forall_append.mpr ⟨seg1_sub, List.forall_append.mpr ⟨seg2_sub, seg3_sub⟩⟩

/-! ## What each stretch writes, and what it leaves alone -/

/-- The buffers the first stretch writes. -/
abbrev seg1_W : List (Ref sig .tc) := [main_v0, main_v1, main_v2, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v3]
/-- The buffers the second stretch writes. -/
abbrev seg2_W : List (Ref sig .tc) := [main_v4, main_v5, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v6]
/-- The buffers the third stretch writes. -/
abbrev seg3_W : List (Ref sig .tc) := [main_v7, main_v8, main_v9, main_v10, main_v11, main_v12, main_v13, main_v14, main_v15]

/-- Every operation of the stretch writes a buffer of the stretch's list. -/
theorem seg1_writes : (seg1 : List (HloOp τ sig (Elt F))).Forall fun op =>
    op.writes ⊆ (seg1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem seg1_keep (V : Valuation τ sig (Elt F)) (r : Ref sig .tc) (h : r ∉ seg1_W) :
    after seg1 V (Proc.devRef .tc r) = V (Proc.devRef .tc r) :=
  after_of_writes_sub seg1 V seg1_writes h

/-- Every operation of the stretch writes a buffer of the stretch's list. -/
theorem seg2_writes : (seg2 : List (HloOp τ sig (Elt F))).Forall fun op =>
    op.writes ⊆ (seg2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem seg2_keep (V : Valuation τ sig (Elt F)) (r : Ref sig .tc) (h : r ∉ seg2_W) :
    after seg2 V (Proc.devRef .tc r) = V (Proc.devRef .tc r) :=
  after_of_writes_sub seg2 V seg2_writes h

/-- Every operation of the stretch writes a buffer of the stretch's list. -/
theorem seg3_writes : (seg3 : List (HloOp τ sig (Elt F))).Forall fun op =>
    op.writes ⊆ (seg3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer the stretch does not write keeps its contents through it. -/
theorem seg3_keep (V : Valuation τ sig (Elt F)) (r : Ref sig .tc) (h : r ∉ seg3_W) :
    after seg3 V (Proc.devRef .tc r) = V (Proc.devRef .tc r) :=
  after_of_writes_sub seg3 V seg3_writes h

/-! ## The stretches read at the buffers the later ones use -/

section Read

variable (V : Valuation τ sig (Elt Ideal))

theorem seg1_v0 : after seg1 V (Proc.devRef .tc main_v0 : DevRef τ sig)
    = extractStridedSlice S1x128 ![0, 0] (V (Proc.devRef .tc main_arg4 : DevRef τ sig)) slices_S1x384_S1x128_0_0 := by
  after_results_simp
theorem seg1_v1 : after seg1 V (Proc.devRef .tc main_v1 : DevRef τ sig)
    = extractStridedSlice S1x128 ![0, 128] (V (Proc.devRef .tc main_arg4 : DevRef τ sig)) slices_S1x384_S1x128_0_128 := by
  after_results_simp
theorem seg1_v2 : after seg1 V (Proc.devRef .tc main_v2 : DevRef τ sig)
    = extractStridedSlice S1x128 ![0, 256] (V (Proc.devRef .tc main_arg4 : DevRef τ sig)) slices_S1x384_S1x128_0_256 := by
  after_results_simp

attribute [local irreducible] Host.reduce Host.gather in
/-- The first stretch leaves the "take" at the source indices in its result buffer. -/
theorem seg1_v3 : after seg1 V (Proc.devRef .tc main_v3 : DevRef τ sig) = takeRows (V (Proc.devRef .tc main_arg0 : DevRef τ sig)) (V (Proc.devRef .tc main_arg2 : DevRef τ sig)) := by
  after_results_simp
  rfl

/-- The second stretch leaves the first product in its buffer … -/
theorem seg2_v5 : after seg2 V (Proc.devRef .tc main_v5 : DevRef τ sig)
    = dotCol (V (Proc.devRef .tc main_v3 : DevRef τ sig)) (transpose S128x1 [1, 0] (V (Proc.devRef .tc main_v0 : DevRef τ sig)) transposes_S1x128_S128x1_1_0) := by
  after_results_simp
  rfl

attribute [local irreducible] Host.reduce Host.gather in
/-- … and the "take" at the destination indices in its result buffer. -/
theorem seg2_v6 : after seg2 V (Proc.devRef .tc main_v6 : DevRef τ sig) = takeRows (V (Proc.devRef .tc main_arg0 : DevRef τ sig)) (V (Proc.devRef .tc main_arg3 : DevRef τ sig)) := by
  after_results_simp
  rfl

/-- The third stretch leaves in the result buffer the three products summed and the bias added. -/
theorem seg3_v15 : after seg3 V (Proc.devRef .tc main_v15 : DevRef τ sig)
    = addf (addf (addf (V (Proc.devRef .tc main_v5 : DevRef τ sig))
          (dotCol (V (Proc.devRef .tc main_v6 : DevRef τ sig)) (transpose S128x1 [1, 0] (V (Proc.devRef .tc main_v1 : DevRef τ sig)) transposes_S1x128_S128x1_1_0)))
        (dotCol (V (Proc.devRef .tc main_arg1 : DevRef τ sig)) (transpose S128x1 [1, 0] (V (Proc.devRef .tc main_v2 : DevRef τ sig)) transposes_S1x128_S128x1_1_0)))
      (biasCol (V (Proc.devRef .tc main_arg5 : DevRef τ sig))) := by
  after_results_simp
  rfl

/-- The whole line leaves `out` of the arguments' contents in the result buffer: the stretches one after the other,
    each read at the buffers the next ones use. -/
theorem out_eq : after ops V (Proc.devRef .tc main_v15 : DevRef τ sig)
    = out (V (Proc.devRef .tc main_arg0 : DevRef τ sig)) (V (Proc.devRef .tc main_arg1 : DevRef τ sig)) (V (Proc.devRef .tc main_arg2 : DevRef τ sig)) (V (Proc.devRef .tc main_arg3 : DevRef τ sig))
        (V (Proc.devRef .tc main_arg4 : DevRef τ sig)) (V (Proc.devRef .tc main_arg5 : DevRef τ sig)) := by
  show after (seg1 ++ (seg2 ++ seg3)) V _ = _
  rw [Cert.LibAfterSplit.after_append, Cert.LibAfterSplit.after_append, seg3_v15, seg2_v5, seg2_v6,
    seg2_keep _ main_arg1 (by decide), seg2_keep _ main_arg5 (by decide), seg2_keep _ main_v1 (by decide), seg2_keep _ main_v2 (by decide),
    seg1_v0, seg1_v1, seg1_v2, seg1_v3,
    seg1_keep _ main_arg0 (by decide), seg1_keep _ main_arg1 (by decide), seg1_keep _ main_arg3 (by decide), seg1_keep _ main_arg5 (by decide)]
  rfl

/-- A buffer no stretch writes keeps its contents through the whole line. -/
theorem keep_eq (r : Ref sig .tc) (h1 : r ∉ seg1_W) (h2 : r ∉ seg2_W) (h3 : r ∉ seg3_W) :
    after ops V (Proc.devRef .tc r : DevRef τ sig) = V (Proc.devRef .tc r) := by
  show after (seg1 ++ (seg2 ++ seg3)) V _ = _
  rw [Cert.LibAfterSplit.after_append, Cert.LibAfterSplit.after_append, seg3_keep _ r h3, seg2_keep _ r h2, seg1_keep _ r h1]

end Read

/-! ## The run -/

/-- On every device, from any memory with zero counters: every weakly fair execution of @main terminates with the
    result buffer at `out` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v15).trans (out_eq _),
      (h c main_arg0).trans (keep_eq _ main_arg0 (by decide) (by decide) (by decide)),
      (h c main_arg1).trans (keep_eq _ main_arg1 (by decide) (by decide) (by decide)),
      (h c main_arg2).trans (keep_eq _ main_arg2 (by decide) (by decide) (by decide)),
      (h c main_arg3).trans (keep_eq _ main_arg3 (by decide) (by decide) (by decide)),
      (h c main_arg4).trans (keep_eq _ main_arg4 (by decide) (by decide) (by decide)),
      (h c main_arg5).trans (keep_eq _ main_arg5 (by decide) (by decide) (by decide))⟩)
    (run_seq scopedRefs_eq scopedSems_eq defs main (fun _ => ops) main_eq (fun _ => ops_sub) m ρ)

end Cert.ReferenceIdeal.RefValue

end
-- ==== Proof.RefRead.lean ====
/-
  The plain formula's result read at one edge: under the stated domain of the index words (each names a row of the
  node table) the result at edge `i` is the edge's score.

  Read stage by stage. A "take" at `(i, k)`: the index word is not negative, so the wrap-around leaves it alone; it
  passes both bounds checks, so the check's bit is one and stays one through the reduction over the unit axis and the
  broadcast along the row; the select therefore keeps the gathered entry, and the gather reads the table at the word
  clamped into the table, which is the row the word names. A weight column at `(k, 0)` is the weight row at the block's
  offset plus `k`. A product with a weight column at `(i, 0)` is the plain sum over `k`. The bias column reads the one
  bias. The three sums and the bias are added in the order the score groups them.
-/
import proofs.«109225_j45054206935079_2_alg».proof.Proof.RefRun
import proofs.«109225_j45054206935079_2_alg».proof.Proof.Spec
import proofs.«109225_j45054206935079_2_alg».proof.Proof.LibHostDot
import proofs.«109225_j45054206935079_2_alg».proof.Proof.LibTake
import Idealize.ShloMosaic.Lib.ValueLayout
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Cert.EdgeSpec

/-! ## One "take" at an entry -/

/-- A word that names a row is not negative: the wrap-around leaves it alone. -/
theorem wrapIdx_apply (idx : IVec S640000 32) (i : Fin 640000) (hs : InRange (idx (ix1 i))) :
    wrapIdx idx (ix1 i) = idx (ix1 i) := by
  show Scalar.select (IntOp.cmpi .slt (idx (ix1 i)) 0#32) _ (idx (ix1 i)) = idx (ix1 i)
  rw [slt_zero_of_inRange hs, select_zero]

/-- The column of start indices at row `i` is the wrapped word of edge `i`. -/
theorem idxCol_apply (idx : IVec S640000 32) (i : Fin 640000) :
    idxCol idx (ix2 i (0 : Fin 1)) = wrapIdx idx (ix1 i) :=
  broadcastInDim_apply _ _ _ _ (ix1 i) fun a => by
    match a with
    | ⟨0, _⟩ => exact (if_neg (show ¬ (640000 : ℕ) = 1 by decide)).symm

/-- A word that names a row passes both bounds checks. -/
theorem maskCol_apply (idx : IVec S640000 32) (i : Fin 640000) (hs : InRange (idx (ix1 i))) :
    maskCol idx (ix2 i (0 : Fin 1)) = 1#1 := by
  show IntOp.andi (IntOp.cmpi .sge (idxCol idx (ix2 i (0 : Fin 1))) 0#32)
      (IntOp.cmpi .sle (idxCol idx (ix2 i (0 : Fin 1))) 49999#32) = 1#1
  rw [idxCol_apply, wrapIdx_apply idx i hs, sge_zero_of_inRange hs, sle_max_of_inRange hs]
  decide

/-- The check reduced over the unit axis is still one. -/
theorem mask_apply (idx : IVec S640000 32) (i : Fin 640000) (hs : InRange (idx (ix1 i))) :
    mask idx (ix1 i) = 1#1 :=
  Cert.LibTake.reduce_andi_unit_axis (maskCol idx) (constantI S_ 1 1#1) reducesTo_S640000x1_S640000_d1 h_S_ i rfl
    (maskCol_apply idx i hs)

/-- A bit per edge broadcast along the row reads the edge's bit. -/
theorem maskRows_apply (m : IVec S640000 1) (i : Fin 640000) (k : Fin 128) :
    broadcastInDim S640000x128 ![0] bcast_S640000_S640000x128_0 m (ix2 i k) = m (ix1 i) :=
  broadcastInDim_apply _ _ _ _ (ix1 i) fun a => by
    match a with
    | ⟨0, _⟩ => exact (if_neg (show ¬ (640000 : ℕ) = 1 by decide)).symm

/-- The gather reads the table at the row the word names. -/
theorem gathered_apply (h : FVec Ideal S50000x128 .f32) (idx : IVec S640000 32) (i : Fin 640000) (k : Fin 128)
    (hs : InRange (idx (ix1 i))) : gathered h idx (ix2 i k) = h (ix2 (row (idx (ix1 i))) k) := by
  refine (Cert.LibTake.gather_row_apply (N := 50000) (K := 128) (R := 640000) (by decide)
    gather_S50000x128_S640000x1_S640000x128_1_0_n_n_0_1_1128_wf h (idxCol idx) i k).trans ?_
  refine congrArg h (congrArg (fun r : Fin 50000 => ix2 r k) (Fin.ext ?_))
  show min (idxCol idx (ix2 i (0 : Fin 1))).toInt.toNat (50000 - 1) = min (idx (ix1 i)).toInt.toNat 49999
  rw [idxCol_apply, wrapIdx_apply idx i hs]

/-- One "take" at `(i, k)`: the table at the row the word names, column `k`. -/
theorem takeRows_apply (h : FVec Ideal S50000x128 .f32) (idx : IVec S640000 32) (i : Fin 640000) (k : Fin 128)
    (hs : InRange (idx (ix1 i))) : takeRows h idx (ix2 i k) = h (ix2 (row (idx (ix1 i))) k) := by
  unfold takeRows
  rw [select_apply, maskRows_apply, mask_apply idx i hs, select_one, gathered_apply h idx i k hs]

/-! ## The weight columns, the products, the bias -/

/-- The first weight column at `(k, 0)`: the weight row at `k`. -/
theorem wT0_apply (w : FVec Ideal S1x384 .f32) (k : Fin 128) :
    wT0 w (ix2 k (0 : Fin 1)) = w (ix2 (0 : Fin 1) (wcol 0 k)) :=
  (transpose_ix2_apply _ _ k (0 : Fin 1)).trans
    (slice2_axis1_apply 0 w _ (0 : Fin 1) k (wcol 0 k) (by show 128 * 0 + k.val = 0 + k.val; omega))

/-- The second weight column at `(k, 0)`: the weight row at `128 + k`. -/
theorem wT1_apply (w : FVec Ideal S1x384 .f32) (k : Fin 128) :
    wT1 w (ix2 k (0 : Fin 1)) = w (ix2 (0 : Fin 1) (wcol 1 k)) :=
  (transpose_ix2_apply _ _ k (0 : Fin 1)).trans
    (slice2_axis1_apply 128 w _ (0 : Fin 1) k (wcol 1 k) (by show 128 * 1 + k.val = 128 + k.val; omega))

/-- The third weight column at `(k, 0)`: the weight row at `256 + k`. -/
theorem wT2_apply (w : FVec Ideal S1x384 .f32) (k : Fin 128) :
    wT2 w (ix2 k (0 : Fin 1)) = w (ix2 (0 : Fin 1) (wcol 2 k)) :=
  (transpose_ix2_apply _ _ k (0 : Fin 1)).trans
    (slice2_axis1_apply 256 w _ (0 : Fin 1) k (wcol 2 k) (by show 128 * 2 + k.val = 256 + k.val; omega))

/-- A row array times a weight column, at `(i, 0)`: the plain sum over the 128 columns. -/
theorem dotCol_apply (l : FVec Ideal S640000x128 .f32) (r : FVec Ideal S128x1 .f32) (i : Fin 640000) :
    dotCol l r (ix2 i (0 : Fin 1)) = ∑ k : Fin 128, l (ix2 i k) * r (ix2 k (0 : Fin 1)) :=
  Cert.LibHostDot.dotGeneral_plain_apply (n := 640000) (K := 128) (A := 1)
    dot_S640000x128_S128x1_S640000x1_1_0_0_1_n_n none rfl rfl rfl rfl (fun _ _ => rfl) (fun _ _ => rfl) l r i 0

/-- The bias column reads the one bias at every edge. -/
theorem biasCol_apply (b : FVec Ideal S1 .f32) (i : Fin 640000) :
    biasCol b (ix2 i (0 : Fin 1)) = b (ix1 (0 : Fin 1)) :=
  (broadcastInDim_apply _ _ _ _ (ix2 (0 : Fin 1) (0 : Fin 1)) fun a => by
      match a with
      | ⟨0, _⟩ => exact (if_pos rfl).symm
      | ⟨1, _⟩ => exact (if_pos rfl).symm).trans
    (broadcastInDim_apply _ _ _ _ (ix1 (0 : Fin 1)) fun a => by
      match a with
      | ⟨0, _⟩ => exact (if_pos rfl).symm)

/-! ## The result at an edge -/

/-- Under the stated domain of the two index words of edge `i`, the result at `(i, 0)` is the edge's score. -/
theorem out_apply (h : FVec Ideal S50000x128 .f32) (e : FVec Ideal S640000x128 .f32) (src dst : IVec S640000 32)
    (w : FVec Ideal S1x384 .f32) (b : FVec Ideal S1 .f32)
    (i : Fin 640000) (hs : Cert.EdgeSpec.InRange (src (ix1 i))) (hd : Cert.EdgeSpec.InRange (dst (ix1 i))) :
    out h e src dst w b (ix2 i (0 : Fin 1)) = Cert.EdgeSpec.score h e src dst w b i := by
  have e0 : ∀ k : Fin 128, takeRows h src (ix2 i k) * wT0 w (ix2 k (0 : Fin 1))
      = h (ix2 (row (src (ix1 i))) k) * w (ix2 (0 : Fin 1) (wcol 0 k)) :=
    fun k => by rw [takeRows_apply h src i k hs, wT0_apply]
  have e1 : ∀ k : Fin 128, takeRows h dst (ix2 i k) * wT1 w (ix2 k (0 : Fin 1))
      = h (ix2 (row (dst (ix1 i))) k) * w (ix2 (0 : Fin 1) (wcol 1 k)) :=
    fun k => by rw [takeRows_apply h dst i k hd, wT1_apply]
  have e2 : ∀ k : Fin 128, e (ix2 i k) * wT2 w (ix2 k (0 : Fin 1))
      = e (ix2 i k) * w (ix2 (0 : Fin 1) (wcol 2 k)) :=
    fun k => by rw [wT2_apply]
  unfold out Cert.EdgeSpec.score
  rw [addf_apply, addf_apply, addf_apply, dotCol_apply, dotCol_apply, dotCol_apply, biasCol_apply,
    Finset.sum_congr rfl fun k _ => e0 k, Finset.sum_congr rfl fun k _ => e1 k, Finset.sum_congr rfl fun k _ => e2 k]

end Cert.ReferenceIdeal.RefValue

end
-- ==== Proof.PreDecode.lean ====
/-
  The stated domain, read back at one edge.

  The precondition is a conjunction of six "for all" tests, each a reduction by `and` from the bit 1 over
  an array of bits. Its last two conjuncts test, for every edge, that the source index and the
  destination index, read signed, are at least 0 and below 50000. If the whole conjunction is 1 then each
  conjunct is 1; a reduction by `and` that is 1 met only 1s; so at each edge `i` both comparisons on
  `src i` hold, and both on `dst i`: each index word names a row of the node table.

  The four finiteness conjuncts are not used.
-/
import proofs.«109225_j45054206935079_2_alg».proof.Pre_finite_inputs
import proofs.«109225_j45054206935079_2_alg».proof.Proof.Gen.Pre_finite_inputs
import proofs.«109225_j45054206935079_2_alg».proof.Proof.Spec
import Idealize.ShloMosaic.Lib.ReduceAll
import Idealize.ShloMosaic.Lib.ValueIdx

namespace Cert.PreDecode

open Idealize.ShloMosaic Idealize.ShloMosaic.ValueIdx

/-- An elementwise `and` of two arrays of words, read at an index, is the `and` of the two words. -/
private theorem andi_apply {s : Shape} {w : Nat} (x y : IVec s w) (i : s.Idx) :
    andi x y i = IntOp.andi (x i) (y i) := rfl

/-- Under the precondition every edge's source and destination index words name rows of the node table:
    read signed, each lies in `[0, 50000)`. Holds at every float instance: only the integer conjuncts
    are read. -/
theorem inRange_of_pre {F : FTy → Type} [FloatOps F] [Cert.Pre_finite_inputs.Facts]
    (h : FVec F Cert.Pre_finite_inputs.S50000x128 .f32) (e : FVec F Cert.Pre_finite_inputs.S640000x128 .f32)
    (src dst : IVec Cert.Pre_finite_inputs.S640000 32) (w : FVec F Cert.Pre_finite_inputs.S1x384 .f32)
    (b : FVec F Cert.Pre_finite_inputs.S1 .f32)
    (hpre : Cert.Pre_finite_inputs.fn (F := F) h e src dst w b = fun _ => 1#1) (i : Fin 640000) :
    Cert.EdgeSpec.InRange (src (ix1 i)) ∧ Cert.EdgeSpec.InRange (dst (ix1 i)) := by
  -- the one element of the precondition's result, with the chain of operations written out
  have h0 := congrFun hpre ix0
  dsimp only [Cert.Pre_finite_inputs.fn, Cert.Pre_finite_inputs.fn_part1] at h0
  -- the outer conjunction: (… ∧ all-src) ∧ all-dst
  rw [andi_apply, IntOp.andi_eq_one] at h0
  obtain ⟨h1, hdst⟩ := h0
  rw [andi_apply, IntOp.andi_eq_one] at h1
  obtain ⟨_, hsrc⟩ := h1
  -- a reduction by `and` into the one-element result that is 1 had a 1 at every edge
  haveI : Subsingleton Cert.Pre_finite_inputs.S_.Idx := ⟨fun a b => funext fun d => d.elim0⟩
  have es := Host.reduce_andi_all _ _ _ _ _ hsrc (ix1 i)
  have ed := Host.reduce_andi_all _ _ _ _ _ hdst (ix1 i)
  -- at edge `i` the tested bit is the `and` of the two comparisons against the splat constants 0 and 50000
  have es' : IntOp.andi (IntOp.cmpi .sge (src (ix1 i)) 0#32) (IntOp.cmpi .slt (src (ix1 i)) 50000#32) = 1#1 := es
  have ed' : IntOp.andi (IntOp.cmpi .sge (dst (ix1 i)) 0#32) (IntOp.cmpi .slt (dst (ix1 i)) 50000#32) = 1#1 := ed
  obtain ⟨s0, s1⟩ := IntOp.andi_eq_one.1 es'
  obtain ⟨d0, d1⟩ := IntOp.andi_eq_one.1 ed'
  exact ⟨Cert.EdgeSpec.inRange_of_cmp s0 s1, Cert.EdgeSpec.inRange_of_cmp d0 d1⟩

end Cert.PreDecode
-- ==== Proof.lean ====
/-
  The certificate: an edge decoder's scores, computed two ways.

  Both programs compute, for each of 640000 edges, the inner product of the concatenation
  (source node's features, destination node's features, edge's features) with a weight row of 384 entries,
  plus a bias.  The reference looks up the two nodes' rows of the node table and multiplies each part by its
  weight block.  The kernel's program first multiplies the whole node table by the first two weight blocks
  (a lookup commutes with a row-wise linear map), looks up the two resulting scalars per edge, adds them and the
  bias on the host, and leaves the third product and the last addition to the kernel, which walks the edges
  in 25 blocks of 200 rows of 128 edges.

  At the extended reals the two results are the same sums in a different grouping, and sums of extended reals
  regroup freely; finiteness of the inputs is never used.  What is used is that every source and destination
  index names a row of the node table: an index out of range makes both programs substitute a filler for the
  looked-up value, the reference before its product with a weight block and the kernel's program after it, and
  the two then differ.  With every index in range the filler is never selected.

  The three frames: the two kernel programs' by their generated frame proofs, the reference's by its run with
  the result dropped.  The idealization rewrote no operation, so there is nothing to preserve.
-/
import proofs.«109225_j45054206935079_2_alg».proof.Defs
import proofs.«109225_j45054206935079_2_alg».proof.Proof.Gen.Kernel
import proofs.«109225_j45054206935079_2_alg».proof.Proof.Gen.Kernel.Skeleton
import proofs.«109225_j45054206935079_2_alg».proof.Proof.Gen.Kernel.Launch
import proofs.«109225_j45054206935079_2_alg».proof.Proof.Gen.Kernel.Points
import proofs.«109225_j45054206935079_2_alg».proof.Proof.Gen.Kernel.Frame
import proofs.«109225_j45054206935079_2_alg».proof.Proof.Gen.KernelIdeal
import proofs.«109225_j45054206935079_2_alg».proof.Proof.Gen.KernelIdeal.Skeleton
import proofs.«109225_j45054206935079_2_alg».proof.Proof.Gen.KernelIdeal.Launch
import proofs.«109225_j45054206935079_2_alg».proof.Proof.Gen.KernelIdeal.Points
import proofs.«109225_j45054206935079_2_alg».proof.Proof.Gen.KernelIdeal.Frame
import proofs.«109225_j45054206935079_2_alg».proof.Proof.Gen.ReferenceIdeal
import proofs.«109225_j45054206935079_2_alg».proof.Proof.Gen.Pre_finite_inputs
import proofs.«109225_j45054206935079_2_alg».proof.Proof.KRun
import proofs.«109225_j45054206935079_2_alg».proof.Proof.RefRead
import proofs.«109225_j45054206935079_2_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run m ρ)

/-- Under the precondition both programs end with the column of edge scores in their result buffers. -/
theorem algebraic : Cert.algebraic_KernelIdeal_ReferenceIdeal := by
  intro m ρ m' ρ' hpre hagree
  have hin : ∀ (c : Dev Cert.KernelIdeal.nD) (i : Fin 640000),
      Cert.EdgeSpec.InRange ((m ((c.tc : Thread Cert.KernelIdeal.nD Cert.KernelIdeal.τ).loc Cert.KernelIdeal.main_arg2)
          : Cert.KernelIdeal.S640000.Idx → BitVec 32) (ix1 i))
      ∧ Cert.EdgeSpec.InRange ((m ((c.tc : Thread Cert.KernelIdeal.nD Cert.KernelIdeal.τ).loc Cert.KernelIdeal.main_arg3)
          : Cert.KernelIdeal.S640000.Idx → BitVec 32) (ix1 i)) :=
    fun c i => Cert.PreDecode.inRange_of_pre _ _ _ _ _ _ (hpre c) i
  refine ⟨_, Cert.KernelIdeal.EdgeValue.run m ρ hin, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  exact Cert.EdgeSpec.eq_scoreArr _ _ _ _ _ _ _ fun i =>
    Cert.ReferenceIdeal.RefValue.out_apply _ _ _ _ _ _ i (hin c i).1 (hin c i).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
